-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S_ : Shape := ⟨0, ![]⟩

class Facts : Prop where
  bcast_S_S32x512x32 : S_.BroadcastsInDim S32x512x32 (![] : Fin 0 → Fin S32x512x32.rank)
  reducesTo_S32x512x32_S_d0_1_2 : S32x512x32.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S50000x128 : S_.BroadcastsInDim S50000x128 (![] : Fin 0 → Fin S50000x128.rank)
  reducesTo_S50000x128_S_d0_1 : S50000x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S50000x1 : S_.BroadcastsInDim S50000x1 (![] : Fin 0 → Fin S50000x1.rank)
  reducesTo_S50000x1_S_d0_1 : S50000x1.ReducesTo [0, 1] S_

variable [Facts]

def fn_part2 {F : FTy → Type} [FloatOps F] (main_arg8 : FVec F S50000x1 .f32) (main_arg9 : FVec F S50000x1 .f32) (main_v33 : IVec S_ 1) : IVec S_ 1 :=
  let main_v34 : FVec F S50000x1 .f32 := Host.absf main_arg8
  let main_cst_12 : FVec F S_ .f32 := constant S_ .f32 0x7F800000#32
  let main_v35 : FVec F S50000x1 .f32 := broadcastInDim S50000x1 ![] bcast_S_S50000x1 main_cst_12
  let main_v36 : IVec S50000x1 1 := cmpf .olt main_v34 main_v35
  let main_c_13 : IVec S_ 1 := constantI S_ 1 1#1
  let main_v37 : IVec S_ 1 := (fun x v => Host.reduce IntOp.andi x v reducesTo_S50000x1_S_d0_1 h_S_) main_v36 main_c_13
  let main_v38 : IVec S_ 1 := andi main_v33 main_v37
  let main_v39 : FVec F S50000x1 .f32 := Host.absf main_arg9
  let main_cst_14 : FVec F S_ .f32 := constant S_ .f32 0x7F800000#32
  let main_v40 : FVec F S50000x1 .f32 := broadcastInDim S50000x1 ![] bcast_S_S50000x1 main_cst_14
  let main_v41 : IVec S50000x1 1 := cmpf .olt main_v39 main_v40
  let main_c_15 : IVec S_ 1 := constantI S_ 1 1#1
  let main_v42 : IVec S_ 1 := (fun x v => Host.reduce IntOp.andi x v reducesTo_S50000x1_S_d0_1 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S64 .f32) (main_arg8 : FVec F S50000x1 .f32) (main_arg9 : FVec F S50000x1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : IVec S32x512x32 32) (main_arg1 : FVec F S32x512x32 .f32) (main_arg2 : FVec F S32x512 .f32) (main_arg3 : FVec F S50000x128 .f32) (main_arg4 : FVec F S64x128 .f32) (main_arg5 : FVec F S64 .f32) (main_arg6 : FVec F S64x128 .f32) (main_arg7 : FVec F S64 .f32) (main_arg8 : FVec F S50000x1 .f32) (main_arg9 : FVec F S50000x1 .f32) : IVec S_ 1 :=
  let main_v0 : FVec F S32x512x32 .f32 := Host.absf main_arg1
  let main_cst : FVec F S_ .f32 := constant S_ .f32 0x7F800000#32
  let main_v1 : FVec F S32x512x32 .f32 := broadcastInDim S32x512x32 ![] bcast_S_S32x512x32 main_cst
  let main_v2 : IVec S32x512x32 1 := cmpf .olt main_v0 main_v1
  let main_c : IVec S_ 1 := constantI S_ 1 1#1
  let main_v3 : IVec S_ 1 := (fun x v => Host.reduce IntOp.andi x v reducesTo_S32x512x32_S_d0_1_2 h_S_) main_v2 main_c
  let main_v4 : FVec F S32x512 .f32 := Host.absf main_arg2
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S16384x32 : Shape := ⟨2, ![16384, 32]⟩
abbrev S16384x1 : Shape := ⟨2, ![16384, 1]⟩
abbrev S_ : Shape := ⟨0, ![]⟩
abbrev S16384x32x1 : Shape := ⟨3, ![16384, 32, 1]⟩
abbrev S16384x32x128 : Shape := ⟨3, ![16384, 32, 128]⟩
abbrev S128x128 : Shape := ⟨2, ![128, 128]⟩
abbrev S128 : Shape := ⟨1, ![128]⟩
abbrev S1x128 : Shape := ⟨2, ![1, 128]⟩
abbrev S16384x128 : Shape := ⟨2, ![16384, 128]⟩
abbrev S128x32x128 : Shape := ⟨3, ![128, 32, 128]⟩
abbrev S128x32 : Shape := ⟨2, ![128, 32]⟩
abbrev S4096x128 : Shape := ⟨2, ![4096, 128]⟩
abbrev S4096x64 : Shape := ⟨2, ![4096, 64]⟩
abbrev S128x32x64 : Shape := ⟨3, ![128, 32, 64]⟩
abbrev S128x32x1 : Shape := ⟨3, ![128, 32, 1]⟩
abbrev S128x1x32 : Shape := ⟨3, ![128, 1, 32]⟩
abbrev S128x32x32 : Shape := ⟨3, ![128, 32, 32]⟩
abbrev S32x512x128 : Shape := ⟨3, ![32, 512, 128]⟩

abbrev nBuf : Space → Nat
  | .hbm => 60
  | .vmem => 10
  | .smem => 0
  | _ => 0

abbrev bufTy : (tb : Table) → Fin (tcTables nBuf tb) → BufTy
  | .hbm, ⟨0, _⟩ => ⟨S32x512x32, .i32⟩
  | .hbm, ⟨1, _⟩ => ⟨S32x512x32, .f32⟩
  | .hbm, ⟨2, _⟩ => ⟨S32x512, .f32⟩
  | .hbm, ⟨3, _⟩ => ⟨S50000x128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000x1, .f32⟩
  | .hbm, ⟨9, _⟩ => ⟨S50000x1, .f32⟩
  | .hbm, ⟨10, _⟩ => ⟨S16384x32, .i32⟩
  | .hbm, ⟨11, _⟩ => ⟨S16384x32, .f32⟩
  | .hbm, ⟨12, _⟩ => ⟨S16384x1, .f32⟩
  | .hbm, ⟨13, _⟩ => ⟨S50000x128, .bf16⟩
  | .hbm, ⟨14, _⟩ => ⟨S_, .i32⟩
  | .hbm, ⟨15, _⟩ => ⟨S16384x32, .i32⟩
  | .hbm, ⟨16, _⟩ => ⟨S16384x32, .i1⟩
  | .hbm, ⟨17, _⟩ => ⟨S_, .i32⟩
  | .hbm, ⟨18, _⟩ => ⟨S16384x32, .i32⟩
  | .hbm, ⟨19, _⟩ => ⟨S16384x32, .i32⟩
  | .hbm, ⟨20, _⟩ => ⟨S16384x32, .i32⟩
  | .hbm, ⟨21, _⟩ => ⟨S16384x32x1, .i32⟩
  | .hbm, ⟨22, _⟩ => ⟨S16384x32x128, .bf16⟩
  | .hbm, ⟨23, _⟩ => ⟨S_, .i32⟩
  | .hbm, ⟨24, _⟩ => ⟨S16384x32, .i32⟩
  | .hbm, ⟨25, _⟩ => ⟨S16384x32, .i1⟩
  | .hbm, ⟨26, _⟩ => ⟨S_, .i32⟩
  | .hbm, ⟨27, _⟩ => ⟨S16384x32, .i32⟩
  | .hbm, ⟨28, _⟩ => ⟨S16384x32, .i32⟩
  | .hbm, ⟨29, _⟩ => ⟨S16384x32, .i32⟩
  | .hbm, ⟨30, _⟩ => ⟨S16384x32x1, .i32⟩
  | .hbm, ⟨31, _⟩ => ⟨S16384x32x1, .f32⟩
  | .hbm, ⟨32, _⟩ => ⟨S16384x32, .f32⟩
  | .hbm, ⟨33, _⟩ => ⟨S_, .i32⟩
  | .hbm, ⟨34, _⟩ => ⟨S16384x32, .i32⟩
  | .hbm, ⟨35, _⟩ => ⟨S16384x32, .i1⟩
  | .hbm, ⟨36, _⟩ => ⟨S_, .i32⟩
  | .hbm, ⟨37, _⟩ => ⟨S16384x32, .i32⟩
  | .hbm, ⟨38, _⟩ => ⟨S16384x32, .i32⟩
  | .hbm, ⟨39, _⟩ => ⟨S16384x32, .i32⟩
  | .hbm, ⟨40, _⟩ => ⟨S16384x32x1, .i32⟩
  | .hbm, ⟨41, _⟩ => ⟨S16384x32x1, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S128x128, .f32⟩
  | .hbm, ⟨56, _⟩ => ⟨S128, .f32⟩
  | .hbm, ⟨57, _⟩ => ⟨S1x128, .f32⟩
  | .hbm, ⟨58, _⟩ => ⟨S16384x128, .f32⟩
  | .hbm, ⟨59, _⟩ => ⟨S32x512x128, .f32⟩
  | .local _ .vmem, ⟨0, _⟩ => ⟨S128x32x128, .bf16⟩
  | .local _ .vmem, ⟨1, _⟩ => ⟨S128x32x128, .bf16⟩
  | .local _ .vmem, ⟨2, _⟩ => ⟨S128x32, .f32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | _, _ => ⟨S32x512x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32_S16384x32 : S32x512x32.ShapeCasts S16384x32
  shapeCasts_S32x512_S16384x1 : S32x512.ShapeCasts S16384x1
  bitsLt_bf16_f32 : FTy.bits .bf16 < FTy.bits .f32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  shapeCasts_S16384x32x1_S16384x32 : S16384x32x1.ShapeCasts S16384x32
  bcast_S16384x1_S16384x32_0_1 : S16384x1.BroadcastsInDim S16384x32 (![0, 1] : Fin 2 → Fin S16384x32.rank)
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S128x32x128_S128x32x128_0_0_0 : ∀ a, (![0, 0, 0] : Fin 3 → Nat) a + S128x32x128.size a ≤ S128x32x128.size a
  h_S128x32x128 : 0 < S128x32x128.numel
  shapeCasts_S128x32x128_S128x32x128 : S128x32x128.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32x128_S4096x128 : S128x32x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S4096x128 : S1x128.Broadcasts S4096x128
  slices_S4096x128_o0_0_S4096x64 : S4096x128.Slices ![0, 0] S4096x64
  slices_S4096x128_o0_64_S4096x64 : S4096x128.Slices ![0, 64] S4096x64
  shapeCasts_S4096x64_S128x32x64 : S4096x64.ShapeCasts S128x32x64
  shapeCasts_S128x32_S128x32x1 : S128x32.ShapeCasts S128x32x1
  shapeCasts_S128x32_S128x1x32 : S128x32.ShapeCasts S128x1x32
  broadcasts_S128x32x1_S128x32x32 : S128x32x1.Broadcasts S128x32x32
  broadcasts_S128x1x32_S128x32x32 : S128x1x32.Broadcasts S128x32x32
  reduces_S128x32x32_S128x32 : S128x32x32.Reduces [2] S128x32
  broadcasts_S128x32x1_S128x32x128 : S128x32x1.Broadcasts S128x32x128
  reduces_S128x32x128_S128x128 : S128x32x128.Reduces [1] S128x128
  shapeCasts_S16384x128_S32x512x128 : S16384x128.ShapeCasts S32x512x128
  gather_S50000x128_S16384x32x1_S16384x32x128_2_0_n_n_0_2_1128_wf : GatherDims.WF S50000x128 S16384x32x1 S16384x32x128 [2] [0] [] [0] [] 2 ![1, 128]
  gather_S50000x1_S16384x32x1_S16384x32x1_2_0_n_n_0_2_11_wf : GatherDims.WF S50000x1 S16384x32x1 S16384x32x1 [2] [0] [] [0] [] 2 ![1, 1]
  dot_S4096x128_S128x128_S4096x128_1_0_0_1_n_n_wf : DotDims.WF S4096x128 S128x128 S4096x128 [1] [0] [0] [1] [] []
  dot_S128x32x64_S128x32x64_S128x32x32_2_2_1_1_0_0_wf : DotDims.WF S128x32x64 S128x32x64 S128x32x32 [2] [2] [1] [1] [0] [0]
  dot_S128x32x32_S128x32x128_S128x32x128_2_1_1_2_0_0_wf : DotDims.WF S128x32x32 S128x32x128 S128x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S16384x32x128.size a
  hwx0_0 : ∀ i : grid0.Coords, EltTy.bits .bf16 = 32 ∨ (Rect.block (s := S16384x32x128) S128x32x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S16384x32.size a
  hwx0_1 : ∀ i : grid0.Coords, EltTy.bits .f32 = 32 ∨ (Rect.block (s := S16384x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S16384x32.size a
  hwx0_2 : ∀ i : grid0.Coords, EltTy.bits .f32 = 32 ∨ (Rect.block (s := S16384x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S16384x128.size a
  hwx0_5 : ∀ i : grid0.Coords, EltTy.bits .f32 = 32 ∨ (Rect.block (s := S16384x128) S128x128.size (cc0_transform_5 i) (hinb0_5 i)).WholeWords (EltTy.packing .f32)

variable [Facts₀]

def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def gather_S50000x1_S16384x32x1_S16384x32x1_2_0_n_n_0_2_11 : GatherDims S50000x1 S16384x32x1 S16384x32x1 where
  offsetDims := [2]
  collapsedSliceDims := [0]
  operandBatchingDims := []
  startIndicesBatchingDims := []
  startIndexMap := [0]
  indexVectorDim := 2
  sliceSizes := ![1, 1]
  wf := gather_S50000x1_S16384x32x1_S16384x32x1_2_0_n_n_0_2_11_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x32x64_S128x32x64_S128x32x32_2_2_1_1_0_0 : DotDims S128x32x64 S128x32x64 S128x32x32 where
  lhsContracting := [2]
  rhsContracting := [2]
  lhsNonContracting := [1]
  rhsNonContracting := [1]
  lhsBatch := [0]
  rhsBatch := [0]
  wf := dot_S128x32x64_S128x32x64_S128x32x32_2_2_1_1_0_0_wf
def dot_S128x32x32_S128x32x128_S128x32x128_2_1_1_2_0_0 : DotDims S128x32x32 S128x32x128 S128x32x128 where
  lhsContracting := [2]
  rhsContracting := [1]
  lhsNonContracting := [1]
  rhsNonContracting := [2]
  lhsBatch := [0]
  rhsBatch := [0]
  wf := dot_S128x32x32_S128x32x128_S128x32x128_2_1_1_2_0_0_wf

abbrev win0_0 : Pipeline.Window sig grid0 :=
  Pipeline.Window.ofSpec (Memref.whole main_v10) S128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x32 : Shape := ⟨3, ![32, 512, 32]⟩
abbrev S32x512 : Shape := ⟨2, ![32, 512]⟩
abbrev S50000x128 : Shape := ⟨2, ![50000, 128]⟩
abbrev S64x128 : Shape := ⟨2, ![64, 128]⟩
abbrev S64 : Shape := ⟨1, ![64]⟩
abbrev S50000x1 : Shape := ⟨2, ![50000, 1]⟩
abbrev S16384x32 : Shape := ⟨2, ![16384, 32]⟩
abbrev S16384 : Shape := ⟨1, ![16384]⟩
abbrev S_ : Shape := ⟨0, ![]⟩
abbrev S16384x32x1 : Shape := ⟨3, ![16384, 32, 1]⟩
abbrev S16384x32x128 : Shape := ⟨3, ![16384, 32, 128]⟩
abbrev S16384x32x64 : Shape := ⟨3, ![16384, 32, 64]⟩
abbrev S1x1x64 : Shape := ⟨3, ![1, 1, 64]⟩
abbrev S16384x1x32 : Shape := ⟨3, ![16384, 1, 32]⟩
abbrev S16384x32x32 : Shape := ⟨3, ![16384, 32, 32]⟩
abbrev S16384x1 : Shape := ⟨2, ![16384, 1]⟩
abbrev S16384x128 : Shape := ⟨2, ![16384, 128]⟩
abbrev S32x512x128 : Shape := ⟨3, ![32, 512, 128]⟩

abbrev nBuf : Space → Nat
  | .hbm => 103
  | .vmem => 0
  | .smem => 0
  | _ => 0

abbrev bufTy : (tb : Table) → Fin (tcTables nBuf tb) → BufTy
  | .hbm, ⟨0, _⟩ => ⟨S32x512x32, .i32⟩
  | .hbm, ⟨1, _⟩ => ⟨S32x512x32, .f32⟩
  | .hbm, ⟨2, _⟩ => ⟨S32x512, .f32⟩
  | .hbm, ⟨3, _⟩ => ⟨S50000x128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000x1, .f32⟩
  | .hbm, ⟨9, _⟩ => ⟨S50000x1, .f32⟩
  | .hbm, ⟨10, _⟩ => ⟨S16384x32, .i32⟩
  | .hbm, ⟨11, _⟩ => ⟨S16384x32, .f32⟩
  | .hbm, ⟨12, _⟩ => ⟨S16384, .f32⟩
  | .hbm, ⟨13, _⟩ => ⟨S_, .i32⟩
  | .hbm, ⟨14, _⟩ => ⟨S16384x32, .i32⟩
  | .hbm, ⟨15, _⟩ => ⟨S16384x32, .i1⟩
  | .hbm, ⟨16, _⟩ => ⟨S_, .i32⟩
  | .hbm, ⟨17, _⟩ => ⟨S16384x32, .i32⟩
  | .hbm, ⟨18, _⟩ => ⟨S16384x32, .i32⟩
  | .hbm, ⟨19, _⟩ => ⟨S16384x32, .i32⟩
  | .hbm, ⟨20, _⟩ => ⟨S16384x32x1, .i32⟩
  | .hbm, ⟨21, _⟩ => ⟨S16384x32x128, .f32⟩
  | .hbm, ⟨22, _⟩ => ⟨S16384x32x64, .f32⟩
  | .hbm, ⟨23, _⟩ => ⟨S1x1x64, .f32⟩
  | .hbm, ⟨24, _⟩ => ⟨S16384x32x64, .f32⟩
  | .hbm, ⟨25, _⟩ => ⟨S16384x32x64, .f32⟩
  | .hbm, ⟨26, _⟩ => ⟨S16384x32x64, .f32⟩
  | .hbm, ⟨27, _⟩ => ⟨S1x1x64, .f32⟩
  | .hbm, ⟨28, _⟩ => ⟨S16384x32x64, .f32⟩
  | .hbm, ⟨29, _⟩ => ⟨S16384x32x64, .f32⟩
  | .hbm, ⟨30, _⟩ => ⟨S16384x32x1, .f32⟩
  | .hbm, ⟨31, _⟩ => ⟨S_, .f32⟩
  | .hbm, ⟨32, _⟩ => ⟨S16384x32x1, .f32⟩
  | .hbm, ⟨33, _⟩ => ⟨S16384x32x1, .i1⟩
  | .hbm, ⟨34, _⟩ => ⟨S_, .f32⟩
  | .hbm, ⟨35, _⟩ => ⟨S_, .f32⟩
  | .hbm, ⟨36, _⟩ => ⟨S16384x32x1, .f32⟩
  | .hbm, ⟨37, _⟩ => ⟨S16384x32x1, .f32⟩
  | .hbm, ⟨38, _⟩ => ⟨S16384x32x1, .f32⟩
  | .hbm, ⟨39, _⟩ => ⟨S16384x1x32, .f32⟩
  | .hbm, ⟨40, _⟩ => ⟨S16384x32x32, .f32⟩
  | .hbm, ⟨41, _⟩ => ⟨S16384x32x32, .f32⟩
  | .hbm, ⟨42, _⟩ => ⟨S16384x32x32, .f32⟩
  | .hbm, ⟨43, _⟩ => ⟨S16384x32x32, .f32⟩
  | .hbm, ⟨44, _⟩ => ⟨S_, .f32⟩
  | .hbm, ⟨45, _⟩ => ⟨S16384x32x32, .f32⟩
  | .hbm, ⟨46, _⟩ => ⟨S16384x32x32, .f32⟩
  | .hbm, ⟨47, _⟩ => ⟨S16384x32x32, .f32⟩
  | .hbm, ⟨48, _⟩ => ⟨S16384x32x32, .f32⟩
  | .hbm, ⟨49, _⟩ => ⟨S_, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32x1, .f32⟩
  | .hbm, ⟨55, _⟩ => ⟨S16384x32x32, .f32⟩
  | .hbm, ⟨56, _⟩ => ⟨S16384x32x32, .f32⟩
  | .hbm, ⟨57, _⟩ => ⟨S16384x32x32, .f32⟩
  | .hbm, ⟨58, _⟩ => ⟨S_, .f32⟩
  | .hbm, ⟨59, _⟩ => ⟨S16384x32, .f32⟩
  | .hbm, ⟨60, _⟩ => ⟨S16384x32x1, .f32⟩
  | .hbm, ⟨61, _⟩ => ⟨S16384x32x32, .f32⟩
  | .hbm, ⟨62, _⟩ => ⟨S16384x32x32, .f32⟩
  | .hbm, ⟨63, _⟩ => ⟨S16384x32x128, .f32⟩
  | .hbm, ⟨64, _⟩ => ⟨S_, .i32⟩
  | .hbm, ⟨65, _⟩ => ⟨S16384x32, .i32⟩
  | .hbm, ⟨66, _⟩ => ⟨S16384x32, .i1⟩
  | .hbm, ⟨67, _⟩ => ⟨S_, .i32⟩
  | .hbm, ⟨68, _⟩ => ⟨S16384x32, .i32⟩
  | .hbm, ⟨69, _⟩ => ⟨S16384x32, .i32⟩
  | .hbm, ⟨70, _⟩ => ⟨S16384x32, .i32⟩
  | .hbm, ⟨71, _⟩ => ⟨S16384x32x1, .i32⟩
  | .hbm, ⟨72, _⟩ => ⟨S16384x32x1, .f32⟩
  | .hbm, ⟨73, _⟩ => ⟨S16384x32, .f32⟩
  | .hbm, ⟨74, _⟩ => ⟨S_, .i32⟩
  | .hbm, ⟨75, _⟩ => ⟨S16384x32, .i32⟩
  | .hbm, ⟨76, _⟩ => ⟨S16384x32, .i1⟩
  | .hbm, ⟨77, _⟩ => ⟨S_, .i32⟩
  | .hbm, ⟨78, _⟩ => ⟨S16384x32, .i32⟩
  | .hbm, ⟨79, _⟩ => ⟨S16384x32, .i32⟩
  | .hbm, ⟨80, _⟩ => ⟨S16384x32, .i32⟩
  | .hbm, ⟨81, _⟩ => ⟨S16384x32x1, .i32⟩
  | .hbm, ⟨82, _⟩ => ⟨S16384x32x1, .f32⟩
  | .hbm, ⟨83, _⟩ => ⟨S16384x32, .f32⟩
  | .hbm, ⟨84, _⟩ => ⟨S16384x1, .f32⟩
  | .hbm, ⟨85, _⟩ => ⟨S16384x32, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S16384x32, .f32⟩
  | .hbm, ⟨90, _⟩ => ⟨S_, .f32⟩
  | .hbm, ⟨91, _⟩ => ⟨S16384x32, .f32⟩
  | .hbm, ⟨92, _⟩ => ⟨S16384x32, .f32⟩
  | .hbm, ⟨93, _⟩ => ⟨S_, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S16384x32x1, .f32⟩
  | .hbm, ⟨98, _⟩ => ⟨S16384x32x128, .f32⟩
  | .hbm, ⟨99, _⟩ => ⟨S16384x32x128, .f32⟩
  | .hbm, ⟨100, _⟩ => ⟨S_, .f32⟩
  | .hbm, ⟨101, _⟩ => ⟨S16384x128, .f32⟩
  | .hbm, ⟨102, _⟩ => ⟨S32x512x128, .f32⟩
  | _, _ => ⟨S32x512x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  shapeCasts_S32x512x32_S16384x32 : S32x512x32.ShapeCasts S16384x32
  shapeCasts_S32x512_S16384 : S32x512.ShapeCasts S16384
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S64_S1x1x64_2 : S64.BroadcastsInDim S1x1x64 (![2] : Fin 1 → Fin S1x1x64.rank)
  bcast_S1x1x64_S16384x32x64_0_1_2 : S1x1x64.BroadcastsInDim S16384x32x64 (![0, 1, 2] : Fin 3 → Fin S16384x32x64.rank)
  bcast_S_S16384x32x1 : S_.BroadcastsInDim S16384x32x1 (![] : Fin 0 → Fin S16384x32x1.rank)
  transposes_S16384x32x1_S16384x1x32_0_2_1 : S16384x32x1.Transposes [0, 2, 1] S16384x1x32
  bcast_S16384x32x1_S16384x32x32_0_1_2 : S16384x32x1.BroadcastsInDim S16384x32x32 (![0, 1, 2] : Fin 3 → Fin S16384x32x32.rank)
  bcast_S16384x1x32_S16384x32x32_0_1_2 : S16384x1x32.BroadcastsInDim S16384x32x32 (![0, 1, 2] : Fin 3 → Fin S16384x32x32.rank)
  bcast_S_S16384x32x32 : S_.BroadcastsInDim S16384x32x32 (![] : Fin 0 → Fin S16384x32x32.rank)
  reducesTo_S16384x32x32_S16384x32_d2 : S16384x32x32.ReducesTo [2] S16384x32
  h_S_ : 0 < S_.numel
  shapeCasts_S16384x32x1_S16384x32 : S16384x32x1.ShapeCasts S16384x32
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S16384x32x1_S16384x32x128_0_1_2 : S16384x32x1.BroadcastsInDim S16384x32x128 (![0, 1, 2] : Fin 3 → Fin S16384x32x128.rank)
  reducesTo_S16384x32x128_S16384x128_d1 : S16384x32x128.ReducesTo [1] S16384x128
  shapeCasts_S16384x128_S32x512x128 : S16384x128.ShapeCasts S32x512x128
  gather_S50000x128_S16384x32x1_S16384x32x128_2_0_n_n_0_2_1128_wf : GatherDims.WF S50000x128 S16384x32x1 S16384x32x128 [2] [0] [] [0] [] 2 ![1, 128]
  dot_S16384x32x128_S64x128_S16384x32x64_2_1_01_0_n_n_wf : DotDims.WF S16384x32x128 S64x128 S16384x32x64 [2] [1] [0, 1] [0] [] []
  dot_S16384x32x64_S16384x32x64_S16384x32x32_2_2_1_1_0_0_wf : DotDims.WF S16384x32x64 S16384x32x64 S16384x32x32 [2] [2] [1] [1] [0] [0]
  dot_S16384x32x32_S16384x32x128_S16384x32x128_2_1_1_2_0_0_wf : DotDims.WF S16384x32x32 S16384x32x128 S16384x32x128 [2] [1] [1] [2] [0] [0]
  gather_S50000x1_S16384x32x1_S16384x32x1_2_0_n_n_0_2_11_wf : GatherDims.WF S50000x1 S16384x32x1 S16384x32x1 [2] [0] [] [0] [] 2 ![1, 1]

variable [Facts₀]

def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def dot_S16384x32x128_S64x128_S16384x32x64_2_1_01_0_n_n : DotDims S16384x32x128 S64x128 S16384x32x64 where
  lhsContracting := [2]
  rhsContracting := [1]
  lhsNonContracting := [0, 1]
  rhsNonContracting := [0]
  lhsBatch := []
  rhsBatch := []
  wf := dot_S16384x32x128_S64x128_S16384x32x64_2_1_01_0_n_n_wf
def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def dot_S16384x32x32_S16384x32x128_S16384x32x128_2_1_1_2_0_0 : DotDims S16384x32x32 S16384x32x128 S16384x32x128 where
  lhsContracting := [2]
  rhsContracting := [1]
  lhsNonContracting := [1]
  rhsNonContracting := [2]
  lhsBatch := [0]
  rhsBatch := [0]
  wf := dot_S16384x32x32_S16384x32x128_S16384x32x128_2_1_1_2_0_0_wf
def gather_S50000x1_S16384x32x1_S16384x32x1_2_0_n_n_0_2_11 : GatherDims S50000x1 S16384x32x1 S16384x32x1 where
  offsetDims := [2]
  collapsedSliceDims := [0]
  operandBatchingDims := []
  startIndicesBatchingDims := []
  startIndexMap := [0]
  indexVectorDim := 2
  sliceSizes := ![1, 1]
  wf := gather_S50000x1_S16384x32x1_S16384x32x1_2_0_n_n_0_2_11_wf

class Facts : Prop extends Facts₀ where

variable [Facts]
-- ==== Proof.KerLayout.lean ====
/-
  The kernel body's layout operations, matrix products and reductions read at coordinates: a block of 128 rows of 32
  concepts is handled as 4096 = 128·32 flat rows for the projection and as a stack of 128 matrices afterwards.
-/
import proofs.«159404_j43525198578144_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.AttnPool.Ker

open Cert.KernelIdeal Idealize.ShloMosaic Idealize.ShloMosaic.ValueIdx

variable {α : Type}

/-- Flat row `32·p + n` of a block: concept `n` of the block's row `p`. -/
def row (p : Fin 128) (n : Fin 32) : Fin 4096 := ⟨p.val * 32 + n.val, by have := p.isLt; have := n.isLt; omega⟩

/-- Column `c` of the first half and of the second half of the fused projection's 128 columns. -/
def lo (c : Fin 64) : Fin 128 := ⟨c.val, by have := c.isLt; omega⟩
def hi (c : Fin 64) : Fin 128 := ⟨64 + c.val, by have := c.isLt; omega⟩

/-! ## Shape casts -/

/-- The block flattened to 4096 rows, at flat row `32·p + n`. -/
theorem flat_apply (x : S128x32x128.Idx → α) (h : S128x32x128.ShapeCasts S4096x128) (p : Fin 128) (n : Fin 32) (k : Fin 128) :
    shapeCast S4096x128 x h (ix2 (row p n) k) = x (ix3 p n k) :=
  shapeCast_apply x h _ _ (by rewrite [Shape.rowMajor_val_three, Shape.rowMajor_val_two]; rfl)

/-- 4096 flat rows stacked back into 128 matrices of 32 rows. -/
theorem unflat_apply (y : S4096x64.Idx → α) (h : S4096x64.ShapeCasts S128x32x64) (p : Fin 128) (n : Fin 32) (c : Fin 64) :
    shapeCast S128x32x64 y h (ix3 p n c) = y (ix2 (row p n) c) :=
  shapeCast_apply y h _ _ (by rewrite [Shape.rowMajor_val_three, Shape.rowMajor_val_two]; rfl)

/-- A trailing unit axis added. -/
theorem col_apply (v : S128x32.Idx → α) (h : S128x32.ShapeCasts S128x32x1) (p : Fin 128) (n : Fin 32) (z : Fin 1) :
    shapeCast S128x32x1 v h (ix3 p n z) = v (ix2 p n) :=
  shapeCast_apply v h _ _ (by
    rewrite [Shape.rowMajor_val_three, Shape.rowMajor_val_two]
    show p.val * 32 + n.val = (p.val * 32 + n.val) * 1 + z.val
    have := z.isLt; omega)

/-- A middle unit axis added. -/
theorem mid_apply (v : S128x32.Idx → α) (h : S128x32.ShapeCasts S128x1x32) (p : Fin 128) (z : Fin 1) (m : Fin 32) :
    shapeCast S128x1x32 v h (ix3 p z m) = v (ix2 p m) :=
  shapeCast_apply v h _ _ (by
    rewrite [Shape.rowMajor_val_three, Shape.rowMajor_val_two]
    show p.val * 32 + m.val = (p.val * 1 + z.val) * 32 + m.val
    have := z.isLt; omega)

/-! ## Slices, the transpose and the broadcasts -/

theorem sliceLo_apply (x : S4096x128.Idx → α) (h : S4096x128.Slices ![0, 0] S4096x64) (r : Fin 4096) (c : Fin 64) :
    extractStridedSlice S4096x64 ![0, 0] x h (ix2 r c) = x (ix2 r (lo c)) :=
  extractStridedSlice_apply _ x h _ _ (fun a => match a with
    | ⟨0, _⟩ => by show r.val = 0 + r.val; omega
    | ⟨1, _⟩ => by show c.val = 0 + c.val; omega)

theorem sliceHi_apply (x : S4096x128.Idx → α) (h : S4096x128.Slices ![0, 64] S4096x64) (r : Fin 4096) (c : Fin 64) :
    extractStridedSlice S4096x64 ![0, 64] x h (ix2 r c) = x (ix2 r (hi c)) :=
  extractStridedSlice_apply _ x h _ _ (fun a => match a with
    | ⟨0, _⟩ => by show r.val = 0 + r.val; omega
    | ⟨1, _⟩ => by show 64 + c.val = 64 + c.val; rfl)

theorem transp_apply (x : S128x128.Idx → α) (h : S128x128.Transposes [1, 0] S128x128) (k c : Fin 128) :
    transpose S128x128 [1, 0] x h (ix2 k c) = x (ix2 c k) :=
  transpose_ix2_apply x h k c

theorem biasRow_apply (v : S1x128.Idx → α) (h : S1x128.Broadcasts S4096x128) (r : Fin 4096) (c : Fin 128) :
    broadcastTo S4096x128 v h (ix2 r c) = v (ix2 (0 : Fin 1) c) :=
  broadcastTo_1b_ab_apply v h r c

/-- A column `[128,32,1]` spread along a new last axis of 32. -/
theorem spreadCol_apply (v : S128x32x1.Idx → α) (h : S128x32x1.Broadcasts S128x32x32) (p : Fin 128) (n m : Fin 32) :
    broadcastTo S128x32x32 v h (ix3 p n m) = v (ix3 p n (0 : Fin 1)) :=
  broadcastTo_apply v h _ _ (fun a => match a with
    | ⟨0, _⟩ => by show p.val = if (128 : Nat) = 1 then 0 else p.val; rw [if_neg (by decide)]
    | ⟨1, _⟩ => by show n.val = if (32 : Nat) = 1 then 0 else n.val; rw [if_neg (by decide)]
    | ⟨2, _⟩ => by show 0 = if (1 : Nat) = 1 then 0 else m.val; rw [if_pos rfl])

/-- A row `[128,1,32]` spread along the middle axis of 32. -/
theorem spreadRow_apply (v : S128x1x32.Idx → α) (h : S128x1x32.Broadcasts S128x32x32) (p : Fin 128) (n m : Fin 32) :
    broadcastTo S128x32x32 v h (ix3 p n m) = v (ix3 p (0 : Fin 1) m) :=
  broadcastTo_apply v h _ _ (fun a => match a with
    | ⟨0, _⟩ => by show p.val = if (128 : Nat) = 1 then 0 else p.val; rw [if_neg (by decide)]
    | ⟨1, _⟩ => by show 0 = if (1 : Nat) = 1 then 0 else n.val; rw [if_pos rfl]
    | ⟨2, _⟩ => by show m.val = if (32 : Nat) = 1 then 0 else m.val; rw [if_neg (by decide)])

/-- A column `[128,32,1]` spread along a new last axis of 128. -/
theorem spreadWide_apply (v : S128x32x1.Idx → α) (h : S128x32x1.Broadcasts S128x32x128) (p : Fin 128) (n : Fin 32) (d : Fin 128) :
    broadcastTo S128x32x128 v h (ix3 p n d) = v (ix3 p n (0 : Fin 1)) :=
  broadcastTo_apply v h _ _ (fun a => match a with
    | ⟨0, _⟩ => by show p.val = if (128 : Nat) = 1 then 0 else p.val; rw [if_neg (by decide)]
    | ⟨1, _⟩ => by show n.val = if (32 : Nat) = 1 then 0 else n.val; rw [if_neg (by decide)]
    | ⟨2, _⟩ => by show 0 = if (1 : Nat) = 1 then 0 else d.val; rw [if_pos rfl])

/-! ## The three matrix products, into a zero accumulator -/

theorem lhs_d1_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_d1_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_d1_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_d1_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The flat projection: rows times columns over the 128 embedding dimensions. -/
theorem mmFlat_apply {φ₁ φ₂ : FTy} (l : FVec Ideal S4096x128 φ₁) (r : FVec Ideal S128x128 φ₂) (i : S4096x128.Idx) :
    matmul dot_S4096x128_S128x128_S4096x128_1_0_0_1_n_n none l r (constant S4096x128 .f32 0x00000000#32) i
      = ∑ k : Fin 128, l (ix2 (i 0) k) * r (ix2 k (i 1)) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx i ((contrEquiv1 dot_S4096x128_S128x128_S4096x128_1_0_0_1_n_n 128 rfl rfl).symm k) = ix2 (i 0) k := funext fun a => Fin.ext (by
    match a with
    | ⟨0, _⟩ => exact lhs_d1_0 _ _
    | ⟨1, _⟩ => exact (lhs_d1_1 _ _).trans hk)
  have er : dot_S4096x128_S128x128_S4096x128_1_0_0_1_n_n.rhsIdx i ((contrEquiv1 dot_S4096x128_S128x128_S4096x128_1_0_0_1_n_n 128 rfl rfl).symm k) = ix2 k (i 1) := funext fun a => Fin.ext (by
    match a with
    | ⟨0, _⟩ => exact (rhs_d1_0 _ _).trans hk
    | ⟨1, _⟩ => exact rhs_d1_1 _ _)
  rw [el, er]
  rfl

theorem lhs_d2_0 (i : S128x32x32.Idx) (q : dot_S128x32x64_S128x32x64_S128x32x32_2_2_1_1_0_0.contr.Idx) :
    (dot_S128x32x64_S128x32x64_S128x32x32_2_2_1_1_0_0.lhsIdx i q 0).val = (i 0).val := by
  unfold DotDims.lhsIdx
  rw [dif_pos (show (0 : Fin S128x32x64.rank) ∈ dot_S128x32x64_S128x32x64_S128x32x32_2_2_1_1_0_0.lhsBatch by decide)]
  rfl
theorem lhs_d2_1 (i : S128x32x32.Idx) (q : dot_S128x32x64_S128x32x64_S128x32x32_2_2_1_1_0_0.contr.Idx) :
    (dot_S128x32x64_S128x32x64_S128x32x32_2_2_1_1_0_0.lhsIdx i q 1).val = (i 1).val := by
  unfold DotDims.lhsIdx
  rw [dif_neg (show ¬(1 : Fin S128x32x64.rank) ∈ dot_S128x32x64_S128x32x64_S128x32x32_2_2_1_1_0_0.lhsBatch by decide), dif_pos (show (1 : Fin S128x32x64.rank) ∈ dot_S128x32x64_S128x32x64_S128x32x32_2_2_1_1_0_0.lhsNonContracting by decide)]
  rfl
theorem lhs_d2_2 (i : S128x32x32.Idx) (q : dot_S128x32x64_S128x32x64_S128x32x32_2_2_1_1_0_0.contr.Idx) :
    (dot_S128x32x64_S128x32x64_S128x32x32_2_2_1_1_0_0.lhsIdx i q 2).val = (q ⟨0, by decide⟩).val :=
  dot_S128x32x64_S128x32x64_S128x32x32_2_2_1_1_0_0.lhsIdx_val_of_single rfl i q
theorem rhs_d2_0 (i : S128x32x32.Idx) (q : dot_S128x32x64_S128x32x64_S128x32x32_2_2_1_1_0_0.contr.Idx) :
    (dot_S128x32x64_S128x32x64_S128x32x32_2_2_1_1_0_0.rhsIdx i q 0).val = (i 0).val := by
  unfold DotDims.rhsIdx
  rw [dif_pos (show (0 : Fin S128x32x64.rank) ∈ dot_S128x32x64_S128x32x64_S128x32x32_2_2_1_1_0_0.rhsBatch by decide)]
  rfl
theorem rhs_d2_1 (i : S128x32x32.Idx) (q : dot_S128x32x64_S128x32x64_S128x32x32_2_2_1_1_0_0.contr.Idx) :
    (dot_S128x32x64_S128x32x64_S128x32x32_2_2_1_1_0_0.rhsIdx i q 1).val = (i 2).val := by
  unfold DotDims.rhsIdx
  rw [dif_neg (show ¬(1 : Fin S128x32x64.rank) ∈ dot_S128x32x64_S128x32x64_S128x32x32_2_2_1_1_0_0.rhsBatch by decide), dif_pos (show (1 : Fin S128x32x64.rank) ∈ dot_S128x32x64_S128x32x64_S128x32x32_2_2_1_1_0_0.rhsNonContracting by decide)]
  rfl
theorem rhs_d2_2 (i : S128x32x32.Idx) (q : dot_S128x32x64_S128x32x64_S128x32x32_2_2_1_1_0_0.contr.Idx) :
    (dot_S128x32x64_S128x32x64_S128x32x32_2_2_1_1_0_0.rhsIdx i q 2).val = (q ⟨0, by decide⟩).val :=
  dot_S128x32x64_S128x32x64_S128x32x32_2_2_1_1_0_0.rhsIdx_val_of_single rfl i q

/-- The stacked inner products of queries and keys over the 64 hidden dimensions. -/
theorem mmScore_apply {φ₁ φ₂ : FTy} (l : FVec Ideal S128x32x64 φ₁) (r : FVec Ideal S128x32x64 φ₂) (i : S128x32x32.Idx) :
    matmul dot_S128x32x64_S128x32x64_S128x32x32_2_2_1_1_0_0 none l r (constant S128x32x32 .f32 0x00000000#32) i
      = ∑ k : Fin 64, l (ix3 (i 0) (i 1) k) * r (ix3 (i 0) (i 2) k) := by
  simp only [matmul]
  rw [Ideal.matmul_constant_zero_apply, ← Equiv.sum_comp (contrEquiv1 dot_S128x32x64_S128x32x64_S128x32x32_2_2_1_1_0_0 64 rfl rfl).symm]
  refine Finset.sum_congr rfl fun k _ => ?_
  have hk := contrEquiv1_symm_val dot_S128x32x64_S128x32x64_S128x32x32_2_2_1_1_0_0 64 rfl rfl k
  have el : dot_S128x32x64_S128x32x64_S128x32x32_2_2_1_1_0_0.lhsIdx i ((contrEquiv1 dot_S128x32x64_S128x32x64_S128x32x32_2_2_1_1_0_0 64 rfl rfl).symm k) = ix3 (i 0) (i 1) k := funext fun a => Fin.ext (by
    match a with
    | ⟨0, _⟩ => exact lhs_d2_0 _ _
    | ⟨1, _⟩ => exact lhs_d2_1 _ _
    | ⟨2, _⟩ => exact (lhs_d2_2 _ _).trans hk)
  have er : dot_S128x32x64_S128x32x64_S128x32x32_2_2_1_1_0_0.rhsIdx i ((contrEquiv1 dot_S128x32x64_S128x32x64_S128x32x32_2_2_1_1_0_0 64 rfl rfl).symm k) = ix3 (i 0) (i 2) k := funext fun a => Fin.ext (by
    match a with
    | ⟨0, _⟩ => exact rhs_d2_0 _ _
    | ⟨1, _⟩ => exact rhs_d2_1 _ _
    | ⟨2, _⟩ => exact (rhs_d2_2 _ _).trans hk)
  rw [el, er]
  rfl

theorem lhs_d3_0 (i : S128x32x128.Idx) (q : dot_S128x32x32_S128x32x128_S128x32x128_2_1_1_2_0_0.contr.Idx) :
    (dot_S128x32x32_S128x32x128_S128x32x128_2_1_1_2_0_0.lhsIdx i q 0).val = (i 0).val := by
  unfold DotDims.lhsIdx
  rw [dif_pos (show (0 : Fin S128x32x32.rank) ∈ dot_S128x32x32_S128x32x128_S128x32x128_2_1_1_2_0_0.lhsBatch by decide)]
  rfl
theorem lhs_d3_1 (i : S128x32x128.Idx) (q : dot_S128x32x32_S128x32x128_S128x32x128_2_1_1_2_0_0.contr.Idx) :
    (dot_S128x32x32_S128x32x128_S128x32x128_2_1_1_2_0_0.lhsIdx i q 1).val = (i 1).val := by
  unfold DotDims.lhsIdx
  rw [dif_neg (show ¬(1 : Fin S128x32x32.rank) ∈ dot_S128x32x32_S128x32x128_S128x32x128_2_1_1_2_0_0.lhsBatch by decide), dif_pos (show (1 : Fin S128x32x32.rank) ∈ dot_S128x32x32_S128x32x128_S128x32x128_2_1_1_2_0_0.lhsNonContracting by decide)]
  rfl
theorem lhs_d3_2 (i : S128x32x128.Idx) (q : dot_S128x32x32_S128x32x128_S128x32x128_2_1_1_2_0_0.contr.Idx) :
    (dot_S128x32x32_S128x32x128_S128x32x128_2_1_1_2_0_0.lhsIdx i q 2).val = (q ⟨0, by decide⟩).val :=
  dot_S128x32x32_S128x32x128_S128x32x128_2_1_1_2_0_0.lhsIdx_val_of_single rfl i q
theorem rhs_d3_0 (i : S128x32x128.Idx) (q : dot_S128x32x32_S128x32x128_S128x32x128_2_1_1_2_0_0.contr.Idx) :
    (dot_S128x32x32_S128x32x128_S128x32x128_2_1_1_2_0_0.rhsIdx i q 0).val = (i 0).val := by
  unfold DotDims.rhsIdx
  rw [dif_pos (show (0 : Fin S128x32x128.rank) ∈ dot_S128x32x32_S128x32x128_S128x32x128_2_1_1_2_0_0.rhsBatch by decide)]
  rfl
theorem rhs_d3_1 (i : S128x32x128.Idx) (q : dot_S128x32x32_S128x32x128_S128x32x128_2_1_1_2_0_0.contr.Idx) :
    (dot_S128x32x32_S128x32x128_S128x32x128_2_1_1_2_0_0.rhsIdx i q 1).val = (q ⟨0, by decide⟩).val :=
  dot_S128x32x32_S128x32x128_S128x32x128_2_1_1_2_0_0.rhsIdx_val_of_single rfl i q
theorem rhs_d3_2 (i : S128x32x128.Idx) (q : dot_S128x32x32_S128x32x128_S128x32x128_2_1_1_2_0_0.contr.Idx) :
    (dot_S128x32x32_S128x32x128_S128x32x128_2_1_1_2_0_0.rhsIdx i q 2).val = (i 2).val := by
  unfold DotDims.rhsIdx
  rw [dif_neg (show ¬(2 : Fin S128x32x128.rank) ∈ dot_S128x32x32_S128x32x128_S128x32x128_2_1_1_2_0_0.rhsBatch by decide), dif_pos (show (2 : Fin S128x32x128.rank) ∈ dot_S128x32x32_S128x32x128_S128x32x128_2_1_1_2_0_0.rhsNonContracting by decide)]
  rfl

/-- The stacked products of the attention weights with the embeddings over the 32 concepts. -/
theorem mmMix_apply {φ₁ φ₂ : FTy} (l : FVec Ideal S128x32x32 φ₁) (r : FVec Ideal S128x32x128 φ₂) (i : S128x32x128.Idx) :
    matmul dot_S128x32x32_S128x32x128_S128x32x128_2_1_1_2_0_0 none l r (constant S128x32x128 .f32 0x00000000#32) i
      = ∑ k : Fin 32, l (ix3 (i 0) (i 1) k) * r (ix3 (i 0) k (i 2)) := by
  simp only [matmul]
  rw [Ideal.matmul_constant_zero_apply, ← Equiv.sum_comp (contrEquiv1 dot_S128x32x32_S128x32x128_S128x32x128_2_1_1_2_0_0 32 rfl rfl).symm]
  refine Finset.sum_congr rfl fun k _ => ?_
  have hk := contrEquiv1_symm_val dot_S128x32x32_S128x32x128_S128x32x128_2_1_1_2_0_0 32 rfl rfl k
  have el : dot_S128x32x32_S128x32x128_S128x32x128_2_1_1_2_0_0.lhsIdx i ((contrEquiv1 dot_S128x32x32_S128x32x128_S128x32x128_2_1_1_2_0_0 32 rfl rfl).symm k) = ix3 (i 0) (i 1) k := funext fun a => Fin.ext (by
    match a with
    | ⟨0, _⟩ => exact lhs_d3_0 _ _
    | ⟨1, _⟩ => exact lhs_d3_1 _ _
    | ⟨2, _⟩ => exact (lhs_d3_2 _ _).trans hk)
  have er : dot_S128x32x32_S128x32x128_S128x32x128_2_1_1_2_0_0.rhsIdx i ((contrEquiv1 dot_S128x32x32_S128x32x128_S128x32x128_2_1_1_2_0_0 32 rfl rfl).symm k) = ix3 (i 0) k (i 2) := funext fun a => Fin.ext (by
    match a with
    | ⟨0, _⟩ => exact rhs_d3_0 _ _
    | ⟨1, _⟩ => exact (rhs_d3_1 _ _).trans hk
    | ⟨2, _⟩ => exact rhs_d3_2 _ _)
  rw [el, er]
  rfl

/-! ## The reductions -/

/-- A reduced index of the stack of 32×32 matrices with the last coordinate put back. -/
theorem liftLast (h : S128x32x32.Reduces [2] S128x32) (j : S128x32.Idx) (k : Fin 32) : h.lift j k = ix3 (j 0) (j 1) k :=
  funext fun a => Fin.ext (by match a with | ⟨0, _⟩ => rfl | ⟨1, _⟩ => rfl | ⟨2, _⟩ => rfl)

/-- A reduced index of the stack of 32×128 matrices with the middle coordinate put back. -/
theorem liftMid (h : S128x32x128.Reduces [1] S128x128) (j : S128x128.Idx) (k : Fin 32) : h.lift j k = ix3 (j 0) k (j 1) :=
  funext fun a => Fin.ext (by match a with | ⟨0, _⟩ => rfl | ⟨1, _⟩ => rfl | ⟨2, _⟩ => rfl)

/-- A sum over the last axis. -/
theorem sumLast_apply (src : FVec Ideal S128x32x32 .f32) (h : S128x32x32.Reduces [2] S128x32) (hφ : FKind.Formats .f32)
    (hacc : (0x00000000#32 : BitVec 32) = FKind.add.neutral .f32 hφ) (j : S128x32.Idx) :
    multiReduction (F := Ideal) .add [2] S128x32 src 0x00000000#32 h hφ hacc j = ∑ k : Fin 32, src (ix3 (j 0) (j 1) k) :=
  (Ideal.multiReduction_add_single src _ h hφ hacc j).trans
    (Finset.sum_congr rfl fun k _ => congrArg src (liftLast h j k))

/-- A sum over the middle axis. -/
theorem sumMid_apply (src : FVec Ideal S128x32x128 .f32) (h : S128x32x128.Reduces [1] S128x128) (hφ : FKind.Formats .f32)
    (hacc : (0x00000000#32 : BitVec 32) = FKind.add.neutral .f32 hφ) (j : S128x128.Idx) :
    multiReduction (F := Ideal) .add [1] S128x128 src 0x00000000#32 h hφ hacc j = ∑ k : Fin 32, src (ix3 (j 0) k (j 1)) :=
  (Ideal.multiReduction_add_single src _ h hφ hacc j).trans
    (Finset.sum_congr rfl fun k _ => congrArg src (liftMid h j k))

/-- A maximum over the last axis, folded from −∞. -/
theorem maxLast_apply (src : FVec Ideal S128x32x32 .f32) (h : S128x32x32.Reduces [2] S128x32) (hφ : FKind.Formats .f32)
    (hacc : (0xFF800000#32 : BitVec 32) = FKind.maximumf.neutral .f32 hφ) (j : S128x32.Idx) :
    multiReduction (F := Ideal) .maximumf [2] S128x32 src 0xFF800000#32 h hφ hacc j
      = (Finset.univ : Finset (Fin 32)).fold max (Ideal.ofBits .f32 0xFF800000#32) (fun k => src (ix3 (j 0) (j 1) k)) :=
  (Ideal.multiReduction_maximumf_single src _ h hφ hacc j).trans
    (congrArg (fun f => (Finset.univ : Finset (Fin 32)).fold max (Ideal.ofBits .f32 0xFF800000#32) f)
      (funext fun k => congrArg src (liftLast h j k)))

/-! ## The same at explicit coordinates -/

theorem mmFlat_ix {φ₁ φ₂ : FTy} (l : FVec Ideal S4096x128 φ₁) (r : FVec Ideal S128x128 φ₂) (q : Fin 4096) (c : Fin 128) :
    matmul dot_S4096x128_S128x128_S4096x128_1_0_0_1_n_n none l r (constant S4096x128 .f32 0x00000000#32) (ix2 q c)
      = ∑ k : Fin 128, l (ix2 q k) * r (ix2 k c) := mmFlat_apply l r (ix2 q c)

theorem mmScore_ix {φ₁ φ₂ : FTy} (l : FVec Ideal S128x32x64 φ₁) (r : FVec Ideal S128x32x64 φ₂) (p : Fin 128) (n m : Fin 32) :
    matmul dot_S128x32x64_S128x32x64_S128x32x32_2_2_1_1_0_0 none l r (constant S128x32x32 .f32 0x00000000#32) (ix3 p n m)
      = ∑ k : Fin 64, l (ix3 p n k) * r (ix3 p m k) := mmScore_apply l r (ix3 p n m)

theorem mmMix_ix {φ₁ φ₂ : FTy} (l : FVec Ideal S128x32x32 φ₁) (r : FVec Ideal S128x32x128 φ₂) (p : Fin 128) (n : Fin 32) (d : Fin 128) :
    matmul dot_S128x32x32_S128x32x128_S128x32x128_2_1_1_2_0_0 none l r (constant S128x32x128 .f32 0x00000000#32) (ix3 p n d)
      = ∑ k : Fin 32, l (ix3 p n k) * r (ix3 p k d) := mmMix_apply l r (ix3 p n d)

theorem sumLast_ix (src : FVec Ideal S128x32x32 .f32) (h : S128x32x32.Reduces [2] S128x32) (hφ : FKind.Formats .f32)
    (hacc : (0x00000000#32 : BitVec 32) = FKind.add.neutral .f32 hφ) (p : Fin 128) (n : Fin 32) :
    multiReduction (F := Ideal) .add [2] S128x32 src 0x00000000#32 h hφ hacc (ix2 p n) = ∑ k : Fin 32, src (ix3 p n k) :=
  sumLast_apply src h hφ hacc (ix2 p n)

theorem sumMid_ix (src : FVec Ideal S128x32x128 .f32) (h : S128x32x128.Reduces [1] S128x128) (hφ : FKind.Formats .f32)
    (hacc : (0x00000000#32 : BitVec 32) = FKind.add.neutral .f32 hφ) (p : Fin 128) (d : Fin 128) :
    multiReduction (F := Ideal) .add [1] S128x128 src 0x00000000#32 h hφ hacc (ix2 p d) = ∑ k : Fin 32, src (ix3 p k d) :=
  sumMid_apply src h hφ hacc (ix2 p d)

theorem maxLast_ix (src : FVec Ideal S128x32x32 .f32) (h : S128x32x32.Reduces [2] S128x32) (hφ : FKind.Formats .f32)
    (hacc : (0xFF800000#32 : BitVec 32) = FKind.maximumf.neutral .f32 hφ) (p : Fin 128) (n : Fin 32) :
    multiReduction (F := Ideal) .maximumf [2] S128x32 src 0xFF800000#32 h hφ hacc (ix2 p n)
      = (Finset.univ : Finset (Fin 32)).fold max (Ideal.ofBits .f32 0xFF800000#32) (fun k => src (ix3 p n k)) :=
  maxLast_apply src h hφ hacc (ix2 p n)

/-! ## The transpose and the reductions with the permutation or the reduced axes as a variable equal to the literal list -/

/-- The transpose at `(k, c)` is the operand at `(c, k)`, for any permutation equal to `[1, 0]`. -/
theorem transp_ix (x : S128x128.Idx → α) (perm : List (Fin S128x128.rank)) (h : S128x128.Transposes perm S128x128)
    (hp : perm = [1, 0]) (k c : Fin 128) : transpose S128x128 perm x h (ix2 k c) = x (ix2 c k) := by
  subst hp; exact transp_apply x h k c

/-- A sum over the last axis, for any axes list equal to `[2]`, from the zero word. -/
theorem sumLast_lit (src : FVec Ideal S128x32x32 .f32) (axes : List (Fin S128x32x32.rank)) (h : S128x32x32.Reduces axes S128x32)
    (ha : axes = [2]) (hφ : FKind.Formats .f32) (hacc : (0x00000000#32 : BitVec 32) = 0x00000000#32) (p : Fin 128) (n : Fin 32) :
    multiReduction (F := Ideal) .add axes S128x32 src 0x00000000#32 h hφ hacc (ix2 p n) = ∑ k : Fin 32, src (ix3 p n k) := by
  subst ha; exact sumLast_ix src h hφ hacc p n

theorem sumMid_lit (src : FVec Ideal S128x32x128 .f32) (axes : List (Fin S128x32x128.rank)) (h : S128x32x128.Reduces axes S128x128)
    (ha : axes = [1]) (hφ : FKind.Formats .f32) (hacc : (0x00000000#32 : BitVec 32) = 0x00000000#32) (p : Fin 128) (d : Fin 128) :
    multiReduction (F := Ideal) .add axes S128x128 src 0x00000000#32 h hφ hacc (ix2 p d) = ∑ k : Fin 32, src (ix3 p k d) := by
  subst ha; exact sumMid_ix src h hφ hacc p d

theorem maxLast_lit (src : FVec Ideal S128x32x32 .f32) (axes : List (Fin S128x32x32.rank)) (h : S128x32x32.Reduces axes S128x32)
    (ha : axes = [2]) (hφ : FKind.Formats .f32) (hacc : (0xFF800000#32 : BitVec 32) = 0xFF800000#32) (p : Fin 128) (n : Fin 32) :
    multiReduction (F := Ideal) .maximumf axes S128x32 src 0xFF800000#32 h hφ hacc (ix2 p n)
      = (Finset.univ : Finset (Fin 32)).fold max (Ideal.ofBits .f32 0xFF800000#32) (fun k => src (ix3 p n k)) := by
  subst ha; exact maxLast_ix src h hφ hacc p n

end Cert.AttnPool.Ker

end
-- ==== Proof.RowSpec.lean ====
/-
  One row of attention pooling, as a function over the extended reals.

  For a batch index `b` (any index type: a row of the whole array, or a row inside one block), a set of 32
  concept embeddings `X b n ·` in dimension 128, a mask row `Mk b ·` and a pooling-weight row `Wt b ·`:
    q[n,h]   = Σ_d X[n,d]·QW[h,d] + qb[h]            k[n,h] likewise with KW, kb        (h < 64)
    f[n]     = 0 where Mk[n] > 1/2, the large negative literal elsewhere
    S[n,m]   = (Σ_h q[n,h]·k[m,h])·(1/8) + f[n]·f[m]
    A[n,m]   = exp(S[n,m] − max_m S[n,·]) / Σ_m' exp(S[n,m'] − max_m S[n,·])          (row softmax)
    out[d]   = Σ_n (Σ_m A[n,m]·X[m,d])·Wt[n]
  Every stage at `b` reads the arrays at `b` only, so re-indexing the batch commutes with every stage by
  unfolding: that is what lets a block of 128 rows be compared with the same rows of the whole array.
-/
import Idealize.ShloMosaic.PureOps.Ideal
import Idealize.ShloMosaic.PureOps.Ideal.Laws
import Idealize.ShloMosaic.Lib.ValueIdx

noncomputable section

namespace Cert.AttnPool

open Idealize.ShloMosaic

variable {B : Type}

/-- A projection: `(Σ_d X[b,n,d]·W[h,d]) + bias[h]`. -/
def proj (X : B → Fin 32 → Fin 128 → EReal) (W : Fin 64 → Fin 128 → EReal) (bias : Fin 64 → EReal)
    (b : B) (n : Fin 32) (h : Fin 64) : EReal :=
  (∑ d : Fin 128, X b n d * W h d) + bias h

/-- The fill of a mask entry: the zero literal where the entry exceeds 1/2, the large negative literal elsewhere. -/
def fill (Mk : B → Fin 32 → EReal) (b : B) (n : Fin 32) : EReal :=
  Scalar.select (Ideal.cmp .ogt (Mk b n) (Ideal.ofBits .f32 0x3F000000#32))
    (Ideal.ofBits .f32 0x00000000#32) (Ideal.ofBits .f32 0xCE6E6B28#32)

/-- The scores: the scaled inner products of the two projections plus the outer product of the fills.
    The scale is the literal 0.125 as a factor. -/
def score (q k : B → Fin 32 → Fin 64 → EReal) (f : B → Fin 32 → EReal) (b : B) (n m : Fin 32) : EReal :=
  (∑ h : Fin 64, q b n h * k b m h) * Ideal.ofBits .f32 0x3E000000#32 + f b n * f b m

/-- A row's maximum, folded from −∞ and then joined with −∞ once more (as the softmax spells it). -/
def rowMax (S : B → Fin 32 → Fin 32 → EReal) (b : B) (n : Fin 32) : EReal :=
  max (Ideal.ofBits .f32 0xFF800000#32)
    ((Finset.univ : Finset (Fin 32)).fold max (Ideal.ofBits .f32 0xFF800000#32) (fun m => S b n m))

/-- The shifted exponentials of a row. -/
def expo (S : B → Fin 32 → Fin 32 → EReal) (b : B) (n m : Fin 32) : EReal :=
  Ideal.exp (S b n m - rowMax S b n)

/-- The row softmax. -/
def attn (S : B → Fin 32 → Fin 32 → EReal) (b : B) (n m : Fin 32) : EReal :=
  Ideal.div (expo S b n m) (∑ m' : Fin 32, expo S b n m')

/-- The attended embeddings, weighted and summed over the set. -/
def pooled (X : B → Fin 32 → Fin 128 → EReal) (Wt : B → Fin 32 → EReal) (S : B → Fin 32 → Fin 32 → EReal)
    (b : B) (d : Fin 128) : EReal :=
  ∑ n : Fin 32, (∑ m : Fin 32, attn S b n m * X b m d) * Wt b n

/-- The whole row function. -/
def out (X : B → Fin 32 → Fin 128 → EReal) (Mk Wt : B → Fin 32 → EReal)
    (QW : Fin 64 → Fin 128 → EReal) (qb : Fin 64 → EReal) (KW : Fin 64 → Fin 128 → EReal) (kb : Fin 64 → EReal)
    (b : B) (d : Fin 128) : EReal :=
  pooled X Wt (score (proj X QW qb) (proj X KW kb) (fill Mk)) b d

/-- Re-indexing the batch commutes with the row function: row `b'` of the re-indexed arrays is row `f b'`. -/
theorem out_reindex {B' : Type} (f : B' → B) (X : B → Fin 32 → Fin 128 → EReal) (Mk Wt : B → Fin 32 → EReal)
    (QW : Fin 64 → Fin 128 → EReal) (qb : Fin 64 → EReal) (KW : Fin 64 → Fin 128 → EReal) (kb : Fin 64 → EReal)
    (b' : B') (d : Fin 128) :
    out (fun b => X (f b)) (fun b => Mk (f b)) (fun b => Wt (f b)) QW qb KW kb b' d
      = out X Mk Wt QW qb KW kb (f b') d := rfl

/-- The literal 8.0 denotes the real 8, -/
theorem ofBits_eight : Ideal.ofBits .f32 0x41000000#32 = ((8 : ℝ) : EReal) := by
  simp [Ideal.ofBits, Ideal.ieee, -EReal.coe_mul]; norm_num

/-- and the literal 0.125 the real 1/8, -/
theorem ofBits_eighth : Ideal.ofBits .f32 0x3E000000#32 = ((1 / 8 : ℝ) : EReal) := by
  simp [Ideal.ofBits, Ideal.ieee, -EReal.coe_mul]; norm_num

/-- so that a quotient by 8.0 is the product with 0.125, at the infinities too. -/
theorem div_eight (x : EReal) : Ideal.div x (Ideal.ofBits .f32 0x41000000#32) = x * Ideal.ofBits .f32 0x3E000000#32 := by
  rw [ofBits_eight, ofBits_eighth, Ideal.div_coe (by norm_num : (8 : ℝ) ≠ 0)]

end Cert.AttnPool

end
-- ==== Proof.KerRows.lean ====
/-
  The kernel body's payloads read at coordinates: from the five blocks a grid point loads — 128 rows of 32 concept
  embeddings, their mask and pooling-weight rows, the fused 128×128 projection matrix (query rows first, key rows
  after) and the fused bias — the stored block is the row function (RowSpec) of the block's rows, the query
  parameters being the first 64 rows / entries of the fused ones and the key parameters the last 64.
-/
import proofs.«159404_j43525198578144_2_alg».proof.Proof.Gen.KernelIdeal.Skeleton
import proofs.«159404_j43525198578144_2_alg».proof.Proof.KerLayout
import proofs.«159404_j43525198578144_2_alg».proof.Proof.RowSpec

noncomputable section

namespace Cert.AttnPool.Ker

open Cert.KernelIdeal Cert.KernelIdeal.Gen Idealize.ShloMosaic Idealize.ShloMosaic.ValueIdx
open Cert.AttnPool

/-- The exponential, elementwise. -/
theorem exp_ix {s : Shape} {φ : FTy} (v : FVec Ideal s φ) (i : s.Idx) : exp v i = Ideal.exp (v i) := rfl

/-! ## The loaded blocks by coordinates -/

/-- Row `p` of the block, concept `n`, dimension `d`. -/
def blkEmb (v : Vec Ideal S128x32x128 .bf16) : Fin 128 → Fin 32 → Fin 128 → EReal := fun p n d => v (ix3 p n d)
/-- A mask or weight block by coordinates. -/
def blkRow (v : Vec Ideal S128x32 .f32) : Fin 128 → Fin 32 → EReal := fun p n => v (ix2 p n)
/-- The query rows (first 64) and the key rows (last 64) of the fused projection matrix. -/
def wLo (v : Vec Ideal S128x128 .f32) : Fin 64 → Fin 128 → EReal := fun h d => v (ix2 (lo h) d)
def wHi (v : Vec Ideal S128x128 .f32) : Fin 64 → Fin 128 → EReal := fun h d => v (ix2 (hi h) d)
/-- The query entries and the key entries of the fused bias. -/
def bLo (v : Vec Ideal S1x128 .f32) : Fin 64 → EReal := fun h => v (ix2 (0 : Fin 1) (lo h))
def bHi (v : Vec Ideal S1x128 .f32) : Fin 64 → EReal := fun h => v (ix2 (0 : Fin 1) (hi h))

variable (v0 : Vec Ideal S128x32x128 .bf16) (v2 : Vec Ideal S128x32 .f32) (v7 : Vec Ideal S128x128 .f32) (v10 : Vec Ideal S1x128 .f32)

/-- The block's scores. -/
abbrev blkS : Fin 128 → Fin 32 → Fin 32 → EReal :=
  score (proj (blkEmb v0) (wLo v7) (bLo v10)) (proj (blkEmb v0) (wHi v7) (bHi v10)) (fill (blkRow v2))

/-- The score payload: one fused projection over the 4096 flat rows, its two column halves stacked back, their
    scaled inner products, plus the outer product of the fills. -/
theorem score_eq (p : Fin 128) (n m : Fin 32) :
    k0_pay4 (F := Ideal) v0 v2 v7 v10 (ix3 p n m) = blkS v0 v2 v7 v10 p n m := by
  unfold k0_pay4 k0_pay2
  dsimp only
  simp only [addf_apply, mulf_apply, broadcast_apply, mmScore_ix, truncf_apply, unflat_apply, sliceLo_apply, sliceHi_apply,
    mmFlat_ix, flat_apply, shapeCast_self, transp_ix, biasRow_apply, spreadCol_apply, spreadRow_apply, col_apply, mid_apply,
    select_apply, cmpf_apply]
  rfl

/-- The row-maximum payload. -/
theorem rowMax_eq (p : Fin 128) (n : Fin 32) (z : Fin 1) :
    k0_pay5 (F := Ideal) v0 v2 v7 v10 (ix3 p n z) = rowMax (blkS v0 v2 v7 v10) p n := by
  unfold k0_pay5
  dsimp only
  simp only [col_apply, maximumf_apply, broadcast_apply, maxLast_lit, score_eq]
  unfold rowMax
  rfl

/-- The stored payload, from scores and row maxima that are those of `S`: softmax, mixing, weighting and the
    sum over the set. -/
theorem pooled_eq (v1 : FVec Ideal S128x32x128 .bf16) (v5 : FVec Ideal S128x32 .f32) (v35 : FVec Ideal S128x32x32 .f32)
    (v39 : FVec Ideal S128x32x1 .f32) (S : Fin 128 → Fin 32 → Fin 32 → EReal)
    (hS : ∀ p n m, v35 (ix3 p n m) = S p n m) (hM : ∀ p n z, v39 (ix3 p n z) = rowMax S p n) (p : Fin 128) (d : Fin 128) :
    k0_pay1 (F := Ideal) v1 v5 v35 v39 (ix2 p d) = pooled (blkEmb v1) (blkRow v5) S p d := by
  unfold k0_pay1
  dsimp only
  simp only [sumMid_lit, mulf_apply, mmMix_ix, truncf_apply, divf_apply, exp_ix, subf_apply, spreadCol_apply, spreadWide_apply,
    col_apply, sumLast_lit, hS, hM]
  unfold pooled attn expo
  rfl

end Cert.AttnPool.Ker

end
-- ==== Proof.KerArray.lean ====
/-
  From blocks to the result array, and through the reshape after the region.

  Grid point `t` loads rows `128·t … 128·t + 127` of the embeddings, mask and weights (and the whole fused
  parameters) and stores the same rows of the result. A row of the stored block is the row function of that row
  of the arrays, so the 128 blocks together are the row function of every row; the last host operation reshapes
  the `[16384, 128]` array to `[32, 512, 128]`.
-/
import proofs.«159404_j43525198578144_2_alg».proof.Proof.Gen.KernelIdeal.Frame
import proofs.«159404_j43525198578144_2_alg».proof.Proof.KerRows
import Idealize.ShloMosaic.Lib.StableHlo.Run

noncomputable section

namespace Cert.AttnPool.Ker

open Cert.KernelIdeal Cert.KernelIdeal.Gen Idealize.ShloMosaic Idealize.ShloMosaic.ValueIdx Idealize.ShloMosaic.TcCoe
open Idealize.SL.Sem Idealize.ShloMosaic.StableHlo
open Cert.AttnPool

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block a grid point stores, from the blocks it loads: the row function of the block's rows. -/
theorem block_eq (x0 : Vec Ideal S128x32x128 .bf16) (x1 x2 : Vec Ideal S128x32 .f32) (x3 : Vec Ideal S128x128 .f32)
    (x4 : Vec Ideal S1x128 .f32) (p d : Fin 128) :
    out0_5 (F := Ideal) x0 x1 x2 x3 x4 (ix2 p d)
      = out (blkEmb x0) (blkRow x1) (blkRow x2) (wLo x3) (bLo x4) (wHi x3) (bHi x4) p d := by
  unfold out0_5
  rw [View.canon_unit_zero hz2]
  simp only [View.ld_unit_zero (S := S128x32x128) hz3, View.ld_unit_zero (S := S128x32) hz2,
    View.ld_unit_zero (S := S128x128) hz2, View.ld_unit_zero (S := S1x128) hz2]
  refine (pooled_eq (k0_pay2 x0) (k0_pay3 x2) (k0_pay4 x0 x1 x3 x4) (k0_pay5 x0 x1 x3 x4) (blkS x0 x1 x3 x4)
    (fun p n m => score_eq x0 x1 x3 x4 p n m) (fun p n z => rowMax_eq x0 x1 x3 x4 p n z) p d).trans ?_
  have e2 : k0_pay2 (F := Ideal) x0 = x0 := shapeCast_self _ _
  have e3 : k0_pay3 (F := Ideal) x2 = x2 := shapeCast_self _ _
  rw [e2, e3]
  rfl

/-! ## The arrays as the region finds them, by coordinates -/

def arrEmb (c : Dev nD) : Fin 16384 → Fin 32 → Fin 128 → EReal :=
  fun b n d => (V m c main_v10 : S16384x32x128.Idx → EReal) (ix3 b n d)
def arrMask (c : Dev nD) : Fin 16384 → Fin 32 → EReal := fun b n => (V m c main_v1 : S16384x32.Idx → EReal) (ix2 b n)
def arrWt (c : Dev nD) : Fin 16384 → Fin 32 → EReal := fun b n => (V m c main_v36 : S16384x32.Idx → EReal) (ix2 b n)
def fusedW (c : Dev nD) : Vec Ideal S128x128 .f32 := V m c main_v37
def fusedB (c : Dev nD) : Vec Ideal S1x128 .f32 := V m c main_v39

/-- What the result array holds after the region: row `j 0`, dimension `j 1`. -/
def result (c : Dev nD) : S16384x128.Idx → EReal := fun j =>
  out (arrEmb m c) (arrMask m c) (arrWt m c) (wLo (fusedW m c)) (bLo (fusedB m c)) (wHi (fusedW m c)) (bHi (fusedB m c))
    (j 0) (j 1)

/-! ## The index maps -/

/-- The printed index maps, decided over the grid: the row windows sit at block `t` of their first axis, the
    parameter windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 128 := by
  have h : t.val < grid0.N := t.isLt
  rw [N_0] at h; exact h

/-- Row `p` of block `t` is row `128·t + p` of the array. -/
def rowOf (t : Fin cfg0.N) (p : Fin 128) : Fin 16384 := ⟨t.val * 128 + p.val, by have := t_lt t; have := p.isLt; omega⟩

/-! ## Each loaded block is the array's rows -/

theorem blk0 (c : Dev nD) (t : Fin cfg0.N) (p : Fin 128) (n : Fin 32) (d : Fin 128) :
    iblk m c 0 t (ix3 p n d) = arrEmb m c (rowOf t p) n d := by
  obtain ⟨e0, e1, e2, -⟩ := idx_facts t
  show V m c main_v10 (((cfg0.win 0).blk t).view.emb (ix3 p n d)) = V m c main_v10 (ix3 (rowOf t p) n d)
  refine congrArg _ (funext fun a => Fin.ext ?_)
  match a with
  | ⟨0, _⟩ => show win0_0.index t (0 : Fin 3) * 128 + 1 * p.val = t.val * 128 + p.val; rw [e0]; omega
  | ⟨1, _⟩ => show win0_0.index t (1 : Fin 3) * 32 + 1 * n.val = n.val; rw [e1]; omega
  | ⟨2, _⟩ => show win0_0.index t (2 : Fin 3) * 128 + 1 * d.val = d.val; rw [e2]; omega

theorem blk1 (c : Dev nD) (t : Fin cfg0.N) (p : Fin 128) (n : Fin 32) :
    iblk m c 1 t (ix2 p n) = arrMask m c (rowOf t p) n := by
  obtain ⟨-, -, -, e0, e1, -⟩ := idx_facts t
  show V m c main_v1 (((cfg0.win 1).blk t).view.emb (ix2 p n)) = V m c main_v1 (ix2 (rowOf t p) n)
  refine congrArg _ (funext fun a => Fin.ext ?_)
  match a with
  | ⟨0, _⟩ => show win0_1.index t (0 : Fin 2) * 128 + 1 * p.val = t.val * 128 + p.val; rw [e0]; omega
  | ⟨1, _⟩ => show win0_1.index t (1 : Fin 2) * 32 + 1 * n.val = n.val; rw [e1]; omega

theorem blk2 (c : Dev nD) (t : Fin cfg0.N) (p : Fin 128) (n : Fin 32) :
    iblk m c 2 t (ix2 p n) = arrWt m c (rowOf t p) n := by
  obtain ⟨-, -, -, -, -, e0, e1, -⟩ := idx_facts t
  show V m c main_v36 (((cfg0.win 2).blk t).view.emb (ix2 p n)) = V m c main_v36 (ix2 (rowOf t p) n)
  refine congrArg _ (funext fun a => Fin.ext ?_)
  match a with
  | ⟨0, _⟩ => show win0_2.index t (0 : Fin 2) * 128 + 1 * p.val = t.val * 128 + p.val; rw [e0]; omega
  | ⟨1, _⟩ => show win0_2.index t (1 : Fin 2) * 32 + 1 * n.val = n.val; rw [e1]; omega

theorem blk3 (c : Dev nD) (t : Fin cfg0.N) (h d : Fin 128) :
    iblk m c 3 t (ix2 h d) = fusedW m c (ix2 h d) := by
  obtain ⟨-, -, -, -, -, -, -, e0, e1, -⟩ := idx_facts t
  show V m c main_v37 (((cfg0.win 3).blk t).view.emb (ix2 h d)) = V m c main_v37 (ix2 h d)
  refine congrArg _ (funext fun a => Fin.ext ?_)
  match a with
  | ⟨0, _⟩ => show win0_3.index t (0 : Fin 2) * 128 + 1 * h.val = h.val; rw [e0]; omega
  | ⟨1, _⟩ => show win0_3.index t (1 : Fin 2) * 128 + 1 * d.val = d.val; rw [e1]; omega

theorem blk4 (c : Dev nD) (t : Fin cfg0.N) (z : Fin 1) (h : Fin 128) :
    iblk m c 4 t (ix2 z h) = fusedB m c (ix2 z h) := by
  obtain ⟨-, -, -, -, -, -, -, -, -, e0, e1, -⟩ := idx_facts t
  show V m c main_v39 (((cfg0.win 4).blk t).view.emb (ix2 z h)) = V m c main_v39 (ix2 z h)
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 128 + 1 * h.val = h.val; rw [e1]; omega

/-! ## What a point writes back, the cover, the array -/

/-- Point `t` writes back block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  obtain ⟨-, -, -, -, -, -, -, -, -, -, -, e0, e1⟩ := idx_facts t
  funext y
  obtain ⟨p, d, rfl⟩ : ∃ (p : Fin 128) (d : Fin 128), y = ix2 p d := ⟨y 0, y 1, eq_ix2 y⟩
  show out0_5 (F := Ideal) (iblk m c 0 t) (iblk m c 1 t) (iblk m c 2 t) (iblk m c 3 t) (iblk m c 4 t) (ix2 p d)
    = result m c (((cfg0.win 5).blk t).view.emb (ix2 p d))
  refine (block_eq (iblk m c 0 t) (iblk m c 1 t) (iblk m c 2 t) (iblk m c 3 t) (iblk m c 4 t) p d).trans ?_
  have hE : blkEmb (iblk m c 0 t) = fun p' => arrEmb m c (rowOf t p') :=
    funext fun p' => funext fun n => funext fun d' => blk0 m c t p' n d'
  have hM : blkRow (iblk m c 1 t) = fun p' => arrMask m c (rowOf t p') :=
    funext fun p' => funext fun n => blk1 m c t p' n
  have hW : blkRow (iblk m c 2 t) = fun p' => arrWt m c (rowOf t p') :=
    funext fun p' => funext fun n => blk2 m c t p' n
  have h3l : wLo (iblk m c 3 t) = wLo (fusedW m c) := funext fun h => funext fun d' => blk3 m c t (lo h) d'
  have h3h : wHi (iblk m c 3 t) = wHi (fusedW m c) := funext fun h => funext fun d' => blk3 m c t (hi h) d'
  have h4l : bLo (iblk m c 4 t) = bLo (fusedB m c) := funext fun h => blk4 m c t 0 (lo h)
  have h4h : bHi (iblk m c 4 t) = bHi (fusedB m c) := funext fun h => blk4 m c t 0 (hi h)
  rw [hE, hM, hW, h3l, h3h, h4l, h4h]
  have hidx : ((cfg0.win 5).blk t).view.emb (ix2 p d) = ix2 (rowOf t p) d := funext fun a => Fin.ext (by
    match a with
    | ⟨0, _⟩ => show win0_5.index t (0 : Fin 2) * 128 + 1 * p.val = t.val * 128 + p.val; rw [e0]; omega
    | ⟨1, _⟩ => show win0_5.index t (1 : Fin 2) * 128 + 1 * d.val = d.val; rw [e1]; omega)
  rw [hidx]
  exact out_reindex (rowOf t) (arrEmb m c) (arrMask m c) (arrWt m c) _ _ _ _ p d

/-- Every row is in the block of the point `row / 128`. -/
theorem cover (c : Dev nD) (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hN : (i 0).val / 128 < grid0.N := by rw [N_0]; omega
  obtain ⟨-, -, -, -, -, -, -, -, -, -, -, e0, e1⟩ := idx_facts ⟨(i 0).val / 128, hN⟩
  have e0' : win0_5.index ⟨(i 0).val / 128, hN⟩ (0 : Fin 2) = (i 0).val / 128 := e0
  refine ⟨⟨(i 0).val / 128, hN⟩, flush0_5 _, ?_⟩
  show i ∈ ((View.whole main_v40).slice (win0_5.rect ⟨(i 0).val / 128, hN⟩)).set
  rw [View.set_slice_whole, Rect.mem_set_unit]
  intro a
  match a with
  | ⟨0, _⟩ =>
    show win0_5.index ⟨(i 0).val / 128, hN⟩ (0 : Fin 2) * 128 ≤ (i 0).val
      ∧ (i 0).val < win0_5.index ⟨(i 0).val / 128, hN⟩ (0 : Fin 2) * 128 + 128
    rw [e0']; omega
  | ⟨1, _⟩ =>
    show win0_5.index ⟨(i 0).val / 128, hN⟩ (1 : Fin 2) * 128 ≤ (i 1).val
      ∧ (i 1).val < win0_5.index ⟨(i 0).val / 128, hN⟩ (1 : Fin 2) * 128 + 128
    rw [e1]; omega

/-- The result array after the region. -/
theorem final (c : Dev nD) : (dats m 0 c).arrAt 5 cfg0.N = result m c :=
  (dats m 0 c).arrAt_eq_of_cover 5 (result m c) (fun t _ => flushed_eq m c t) (cover c)

/-! ## The reshape after the region, and the run -/

/-- @main's result: the result array reshaped to `[32, 512, 128]`. -/
theorem tail_eq (c : Dev nD) :
    Pipeline.afterTail₀ cfgs (dats m) 0 (V0 m) [hostOps1] c main_v41
      = shapeCast S32x512x128 (result m c) shapeCasts_S16384x128_S32x512x128 := by
  unfold Pipeline.afterTail₀
  show StableHlo.after hostOps1 _ (Proc.devRef .tc main_v41) = _
  after_results
  exact congrArg (fun x => shapeCast S32x512x128 x shapeCasts_S16384x128_S32x512x128)
    ((Pipeline.withArrays_arr spec0 launch0.win.arr_inj c _ _ 5).trans (final m c))

/-- Every weakly fair execution of the idealized kernel program ends with @main's result at the reshaped
    `result` and the arguments unchanged. -/
theorem run : θ_run defs (onTc (τ := τ) (main (F := Ideal))) ⟨m, fun _ => 0, ρ⟩ (fun r => ∀ c : Dev nD,
      r.2.mem ((c.tc : Thread nD τ).loc main_v41) = shapeCast S32x512x128 (result m c) shapeCasts_S16384x128_S32x512x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.AttnPool.Ker

end
-- ==== Proof.RefRows.lean ====
/-
  The reference program read row by row: each of its stages, at an index, is the corresponding stage of the
  row function (RowSpec) of three arrays it computes first — the gathered embeddings, the reshaped mask and the
  pooling weights — and of the four projection parameters.
-/
import proofs.«159404_j43525198578144_2_alg».proof.Proof.Gen.ReferenceIdeal.Read
import proofs.«159404_j43525198578144_2_alg».proof.Proof.RowSpec

noncomputable section

namespace Cert.AttnPool.Ref

open Cert.ReferenceIdeal Cert.ReferenceIdeal.Gen Cert.ReferenceIdeal.Read Idealize.ShloMosaic Idealize.ShloMosaic.ValueIdx
open Cert.AttnPool

variable (x0 : (⟨S32x512x32, .i32⟩ : BufTy).Contents (Elt Ideal)) (x1 : (⟨S32x512x32, .f32⟩ : BufTy).Contents (Elt Ideal))
  (x2 : (⟨S32x512, .f32⟩ : BufTy).Contents (Elt Ideal)) (x3 : (⟨S50000x128, .f32⟩ : BufTy).Contents (Elt Ideal))
  (x4 : (⟨S64x128, .f32⟩ : BufTy).Contents (Elt Ideal)) (x5 : (⟨S64, .f32⟩ : BufTy).Contents (Elt Ideal))
  (x6 : (⟨S64x128, .f32⟩ : BufTy).Contents (Elt Ideal)) (x7 : (⟨S64, .f32⟩ : BufTy).Contents (Elt Ideal))
  (x8 x9 : (⟨S50000x1, .f32⟩ : BufTy).Contents (Elt Ideal))

/-- The gathered embeddings by coordinates: row `b`, concept `n`, dimension `d`. -/
def embRows : Fin 16384 → Fin 32 → Fin 128 → EReal := fun b n d => val_main_v9 (F := Ideal) x0 x3 (ix3 b n d)
/-- The mask by coordinates. -/
def maskRows : Fin 16384 → Fin 32 → EReal := fun b n => val_main_v1 (F := Ideal) x1 (ix2 b n)
/-- The pooling weights by coordinates. -/
def weightRows : Fin 16384 → Fin 32 → EReal := fun b n => val_main_v69 (F := Ideal) x0 x1 x2 x8 x9 (ix2 b n)
/-- A projection matrix and a bias by coordinates. -/
def mat (w : (⟨S64x128, .f32⟩ : BufTy).Contents (Elt Ideal)) : Fin 64 → Fin 128 → EReal := fun h d => w (ix2 h d)
def vec (v : (⟨S64, .f32⟩ : BufTy).Contents (Elt Ideal)) : Fin 64 → EReal := fun h => v (ix1 h)

/-! ## The index maps of the stages, by coordinates -/

theorem lidx10 (i : S16384x32x64.Idx) (k : Fin 128) : lidx_main_v10 i k = ix3 (i 0) (i 1) k :=
  funext fun a => Fin.ext (by match a with | ⟨0, _⟩ => rfl | ⟨1, _⟩ => rfl | ⟨2, _⟩ => rfl)
theorem ridx10 (i : S16384x32x64.Idx) (k : Fin 128) : ridx_main_v10 i k = ix2 (i 2) k :=
  funext fun a => Fin.ext (by match a with | ⟨0, _⟩ => rfl | ⟨1, _⟩ => rfl)
theorem idx11 (i : S16384x32x64.Idx) : idx_main_v11 (idx_main_v12 i) = ix1 (i 2) :=
  funext fun a => Fin.ext (by match a with | ⟨0, _⟩ => rfl)
theorem lidx14 (i : S16384x32x64.Idx) (k : Fin 128) : lidx_main_v14 i k = ix3 (i 0) (i 1) k :=
  funext fun a => Fin.ext (by match a with | ⟨0, _⟩ => rfl | ⟨1, _⟩ => rfl | ⟨2, _⟩ => rfl)
theorem ridx14 (i : S16384x32x64.Idx) (k : Fin 128) : ridx_main_v14 i k = ix2 (i 2) k :=
  funext fun a => Fin.ext (by match a with | ⟨0, _⟩ => rfl | ⟨1, _⟩ => rfl)
theorem idx15 (i : S16384x32x64.Idx) : idx_main_v15 (idx_main_v16 i) = ix1 (i 2) :=
  funext fun a => Fin.ext (by match a with | ⟨0, _⟩ => rfl)
theorem idx18 (i : S16384x32x1.Idx) : idx_main_v18 i = ix2 (i 0) (i 1) :=
  funext fun a => Fin.ext (by match a with | ⟨0, _⟩ => rfl | ⟨1, _⟩ => rfl)

/-! ## The stages -/

/-- The query projection. -/
theorem q_eq (i : S16384x32x64.Idx) :
    val_main_v13 (F := Ideal) x0 x3 x4 x5 i = proj (embRows x0 x3) (mat x4) (vec x5) (i 0) (i 1) (i 2) := by
  rw [val_main_v13_apply, val_main_v10_apply, val_main_v12_apply, val_main_v11_apply]
  simp only [lidx10, ridx10, idx11]
  rfl

/-- The key projection. -/
theorem k_eq (i : S16384x32x64.Idx) :
    val_main_v17 (F := Ideal) x0 x3 x6 x7 i = proj (embRows x0 x3) (mat x6) (vec x7) (i 0) (i 1) (i 2) := by
  rw [val_main_v17_apply, val_main_v14_apply, val_main_v16_apply, val_main_v15_apply]
  simp only [lidx14, ridx14, idx15]
  rfl

/-- The fill. -/
theorem fill_eq (i : S16384x32x1.Idx) :
    val_main_v21 (F := Ideal) x1 i = fill (maskRows x1) (i 0) (i 1) := by
  rw [val_main_v21_apply, val_main_v20_apply, val_main_v18_apply, val_main_v19_apply, val_main_cst_apply,
    val_main_call0_v0_apply, val_main_call0_v1_apply, val_main_cst_1_apply, val_main_cst_2_apply, idx18]
  rfl

/-! ## Scores, softmax and the pooled row -/

/-- The three arrays' rows and the parameters, as the row function takes them. -/
abbrev S : Fin 16384 → Fin 32 → Fin 32 → EReal :=
  score (proj (embRows x0 x3) (mat x4) (vec x5)) (proj (embRows x0 x3) (mat x6) (vec x7)) (fill (maskRows x1))

/-- The scores: the host's quotient by 8.0 is the product with 0.125. -/
theorem score_eq (i : S16384x32x32.Idx) :
    val_main_v30 (F := Ideal) x0 x1 x3 x4 x5 x6 x7 i = S x0 x1 x3 x4 x5 x6 x7 (i 0) (i 1) (i 2) := by
  rw [val_main_v30_apply, val_main_v28_apply, val_main_v26_apply, val_main_v27_apply, val_main_cst_3_apply,
    val_main_v29_apply, val_main_v25_apply, val_main_v23_apply, val_main_v24_apply, val_main_v22_apply]
  simp only [q_eq, k_eq, fill_eq]
  rw [show ∀ y : EReal, FloatOps.hostDivf (F := Ideal) (φ := .f32) y (FloatOps.ofBits .f32 0x41000000#32)
      = y * Ideal.ofBits .f32 0x3E000000#32 from div_eight]
  rfl

/-- A reduced index with the coordinate of the last axis put back. -/
theorem lift2 (h : S16384x32x32.Reduces [2] S16384x32) (j : S16384x32.Idx) (k : Fin 32) :
    h.lift j k = ix3 (j 0) (j 1) k :=
  funext fun a => Fin.ext (by match a with | ⟨0, _⟩ => rfl | ⟨1, _⟩ => rfl | ⟨2, _⟩ => rfl)

/-- The row maximum: the host's maximum-reduce from −∞ over the last axis, joined with −∞. -/
theorem rowMax_eq (j : S16384x32.Idx) :
    val_main_v33 (F := Ideal) x0 x1 x3 x4 x5 x6 x7 j = rowMax (S x0 x1 x3 x4 x5 x6 x7) (j 0) (j 1) := by
  rw [val_main_v33_apply, val_main_v32_apply, val_main_cst_5_apply]
  unfold val_main_v31
  rw [Host.reduce_eq_fold_single FloatOps.maximumf _ _ reducesTo_S16384x32x32_S16384x32_d2 (by decide) h_S_ j]
  have hf : (val_main_v30 (F := Ideal) x0 x1 x3 x4 x5 x6 x7 ∘ (by decide : S16384x32x32.Reduces [2] S16384x32).lift j)
      = fun m : Fin 32 => S x0 x1 x3 x4 x5 x6 x7 (j 0) (j 1) m :=
    funext fun m => (congrArg (val_main_v30 (F := Ideal) x0 x1 x3 x4 x5 x6 x7) (lift2 _ j m)).trans
      (score_eq x0 x1 x3 x4 x5 x6 x7 (ix3 (j 0) (j 1) m))
  rw [hf]
  rfl

/-- The shifted exponentials. -/
theorem expo_eq (i : S16384x32x32.Idx) :
    val_main_v37 (F := Ideal) x0 x1 x3 x4 x5 x6 x7 i = expo (S x0 x1 x3 x4 x5 x6 x7) (i 0) (i 1) (i 2) := by
  rw [val_main_v37_apply, val_main_v36_apply, val_main_v35_apply, val_main_v34_apply, score_eq, rowMax_eq]
  rfl

/-- The softmax: the host's sum starts from the zero literal. -/
theorem attn_eq (i : S16384x32x32.Idx) :
    val_main_v41 (F := Ideal) x0 x1 x3 x4 x5 x6 x7 i = attn (S x0 x1 x3 x4 x5 x6 x7) (i 0) (i 1) (i 2) := by
  rw [val_main_v41_apply, val_main_v40_apply, val_main_v39_apply, val_main_v38_apply, val_main_cst_6_apply]
  simp only [expo_eq]
  rw [show (FloatOps.ofBits (F := Ideal) .f32 0x00000000#32 : EReal) = 0 from Ideal.ofBits_zero_f32, zero_add]
  rfl

theorem ridx42 (i : S16384x32x128.Idx) (k : Fin 32) : ridx_main_v42 i k = ix3 (i 0) k (i 2) :=
  funext fun a => Fin.ext (by match a with | ⟨0, _⟩ => rfl | ⟨1, _⟩ => rfl | ⟨2, _⟩ => rfl)
theorem idx70 (i : S16384x32x128.Idx) : idx_main_v70 (idx_main_v71 i) = ix2 (i 0) (i 1) :=
  funext fun a => Fin.ext (by match a with | ⟨0, _⟩ => rfl | ⟨1, _⟩ => rfl)

/-- The pooled row: the whole reference before its last reshape, at row `j 0` and dimension `j 1`. -/
theorem out_eq (j : S16384x128.Idx) :
    val_main_v73 (F := Ideal) x0 x1 x2 x3 x4 x5 x6 x7 x8 x9 j
      = out (embRows x0 x3) (maskRows x1) (weightRows x0 x1 x2 x8 x9) (mat x4) (vec x5) (mat x6) (vec x7) (j 0) (j 1) := by
  rw [val_main_v73_apply, val_main_cst_13_apply]
  simp only [val_main_v72_apply, val_main_v42_apply, val_main_v71_apply, val_main_v70_apply, attn_eq, ridx42, idx70]
  rw [show (FloatOps.ofBits (F := Ideal) .f32 0x00000000#32 : EReal) = 0 from Ideal.ofBits_zero_f32, zero_add]
  rfl

end Cert.AttnPool.Ref

end
-- ==== Proof.Bridge.lean ====
/-
  The arrays the kernel's region finds are the reference's own stages.

  Before the region the kernel program gathers the embeddings (from the table rounded to bf16, which changes
  nothing over the extended reals), reshapes the mask, computes the pooling weights sigmoid(θ − μ·time)·mask and
  concatenates the two projection matrices and the two biases. The reference computes the same three arrays — its
  only different spelling is the column of times, a reshape to `[16384, 1]` in one program and a reshape to
  `[16384]` followed by a broadcast in the other — and uses the four parameters apart, which are the two halves
  of the concatenations.
-/
import proofs.«159404_j43525198578144_2_alg».proof.Proof.KerArray
import proofs.«159404_j43525198578144_2_alg».proof.Proof.RefRows

noncomputable section

namespace Cert.AttnPool.Bridge

open Idealize.ShloMosaic Idealize.ShloMosaic.ValueIdx Idealize.ShloMosaic.TcCoe Idealize.SL.Sem Idealize.ShloMosaic.StableHlo
open Cert.AttnPool

/-! ## The reference's weights as a function of the column of times -/

section Reference

open Cert.ReferenceIdeal Cert.ReferenceIdeal.Gen Cert.ReferenceIdeal.Read

/-- The pooling weights sigmoid(θ − μ·time)·mask, from the `[16384, 1]` column of times (at any float instance). -/
def weightOf {F : FTy → Type} [FloatOps F] (x0 : (⟨S32x512x32, .i32⟩ : BufTy).Contents (Elt F))
    (x1 : (⟨S32x512x32, .f32⟩ : BufTy).Contents (Elt F)) (x8 x9 : (⟨S50000x1, .f32⟩ : BufTy).Contents (Elt F))
    (col : (⟨S16384x1, .f32⟩ : BufTy).Contents (Elt F)) : (⟨S16384x32, .f32⟩ : BufTy).Contents (Elt F) :=
  mulf (Host.divf (val_main_v67 (F := F)) (addf (val_main_v65 (F := F)) (Host.exp (Host.negf
    (subf (val_main_v50 (F := F) x0 x8)
      (mulf (val_main_v58 (F := F) x0 x9) (broadcastInDim S16384x32 ![0, 1] bcast_S16384x1_S16384x32_0_1 col)))))))
    (val_main_v1 (F := F) x1)

variable (x0 : (⟨S32x512x32, .i32⟩ : BufTy).Contents (Elt Ideal)) (x1 : (⟨S32x512x32, .f32⟩ : BufTy).Contents (Elt Ideal))
  (x2 : (⟨S32x512, .f32⟩ : BufTy).Contents (Elt Ideal)) (x8 x9 : (⟨S50000x1, .f32⟩ : BufTy).Contents (Elt Ideal))

theorem weight_ref : val_main_v69 (F := Ideal) x0 x1 x2 x8 x9 = weightOf (F := Ideal) x0 x1 x8 x9 (val_main_v59 (F := Ideal) x2) := rfl

/-- The column of times: reshaping `[32, 512]` to `[16384, 1]` at once is reshaping to `[16384]` and adding the axis. -/
theorem col_eq (h : S32x512.ShapeCasts S16384x1) : shapeCast S16384x1 x2 h = val_main_v59 (F := Ideal) x2 := by
  funext i
  rw [val_main_v59_apply, val_main_v2_apply]
  exact shapeCast_apply x2 h i (idx_main_v2 (idx_main_v59 i)) (by
    rewrite [Shape.rowMajor_val_two, Shape.rowMajor_val_two]
    show (i 0).val / 512 * 512 + (i 0).val % 512 = (i 0).val * 1 + (i 1).val
    have h1 : (i 1).val < 1 := (i 1).isLt
    omega)

end Reference

/-! ## What the region finds -/

section Kernel

open Cert.KernelIdeal Cert.KernelIdeal.Gen
open Cert.ReferenceIdeal.Read

variable (m : (ℓ : Loc nD τ sig) → Buf (Elt Ideal) ℓ) (c : Dev nD)

/-- The gathered embeddings. -/
theorem emb_eq : (V m c main_v10 : S16384x32x128.Idx → EReal)
    = val_main_v9 (F := Ideal) (m ((c.tc : Thread nD τ).loc main_arg0)) (m ((c.tc : Thread nD τ).loc main_arg3)) := by
  show StableHlo.after hostOps0 (fun b => m (c, b)) (Proc.devRef .tc main_v10) = _
  after_results_simp
  rfl

/-- The reshaped mask. -/
theorem mask_eq : (V m c main_v1 : S16384x32.Idx → EReal)
    = val_main_v1 (F := Ideal) (m ((c.tc : Thread nD τ).loc main_arg1)) := by
  show StableHlo.after hostOps0 (fun b => m (c, b)) (Proc.devRef .tc main_v1) = _
  after_results_simp
  rfl

/-- The pooling weights. -/
theorem weight_eq : (V m c main_v36 : S16384x32.Idx → EReal)
    = val_main_v69 (F := Ideal) (m ((c.tc : Thread nD τ).loc main_arg0)) (m ((c.tc : Thread nD τ).loc main_arg1))
        (m ((c.tc : Thread nD τ).loc main_arg2)) (m ((c.tc : Thread nD τ).loc main_arg8)) (m ((c.tc : Thread nD τ).loc main_arg9)) := by
  have h : (V m c main_v36 : S16384x32.Idx → EReal)
      = weightOf (F := Ideal) (m ((c.tc : Thread nD τ).loc main_arg0)) (m ((c.tc : Thread nD τ).loc main_arg1))
          (m ((c.tc : Thread nD τ).loc main_arg8)) (m ((c.tc : Thread nD τ).loc main_arg9))
          (shapeCast S16384x1 (m ((c.tc : Thread nD τ).loc main_arg2)) shapeCasts_S32x512_S16384x1) := by
    show StableHlo.after hostOps0 (fun b => m (c, b)) (Proc.devRef .tc main_v36) = _
    after_results_simp
    rfl
  rw [h, col_eq, weight_ref]

/-- The fused projection matrix: the query matrix on top of the key matrix. -/
theorem fusedW_eq : Ker.fusedW m c
    = concatenate S128x128 0 [⟨S64x128, m ((c.tc : Thread nD τ).loc main_arg4)⟩, ⟨S64x128, m ((c.tc : Thread nD τ).loc main_arg6)⟩]
        concatenates_S64x128_S64x128_S128x128_d0 := by
  show StableHlo.after hostOps0 (fun b => m (c, b)) (Proc.devRef .tc main_v37) = _
  after_results_simp
  rfl

/-- The fused bias: the query bias followed by the key bias, as one row. -/
theorem fusedB_eq : Ker.fusedB m c
    = shapeCast S1x128 (concatenate S128 0 [⟨S64, m ((c.tc : Thread nD τ).loc main_arg5)⟩, ⟨S64, m ((c.tc : Thread nD τ).loc main_arg7)⟩]
        concatenates_S64_S64_S128_d0) shapeCasts_S128_S1x128 := by
  show StableHlo.after hostOps0 (fun b => m (c, b)) (Proc.devRef .tc main_v39) = _
  after_results_simp
  rfl

/-- The first 64 rows of the fused matrix are the query matrix, -/
theorem wLo_eq : Ker.wLo (Ker.fusedW m c) = Ref.mat (m ((c.tc : Thread nD τ).loc main_arg4)) := by
  funext h d
  show Ker.fusedW m c (ix2 (Ker.lo h) d) = m ((c.tc : Thread nD τ).loc main_arg4) (ix2 h d)
  rw [fusedW_eq]
  exact concatenate_pair_apply_left 0 _ _ concatenates_S64x128_S64x128_S128x128_d0 (ix2 (Ker.lo h) d) rfl (ix2 h d)
    (fun b => match b with | ⟨0, _⟩ => rfl | ⟨1, _⟩ => rfl)

/-- the last 64 the key matrix, -/
theorem wHi_eq : Ker.wHi (Ker.fusedW m c) = Ref.mat (m ((c.tc : Thread nD τ).loc main_arg6)) := by
  funext h d
  show Ker.fusedW m c (ix2 (Ker.hi h) d) = m ((c.tc : Thread nD τ).loc main_arg6) (ix2 h d)
  rw [fusedW_eq]
  exact concatenate_pair_apply_right 0 _ _ concatenates_S64x128_S64x128_S128x128_d0 (ix2 (Ker.hi h) d) rfl rfl (ix2 h d)
    (fun b hb => match b, hb with | ⟨0, _⟩, hb => absurd rfl hb | ⟨1, _⟩, _ => rfl)
    (by show h.val + 64 = 64 + h.val; omega)

/-- the first 64 entries of the fused bias the query bias, -/
theorem bLo_eq : Ker.bLo (Ker.fusedB m c) = Ref.vec (m ((c.tc : Thread nD τ).loc main_arg5)) := by
  funext h
  show Ker.fusedB m c (ix2 (0 : Fin 1) (Ker.lo h)) = m ((c.tc : Thread nD τ).loc main_arg5) (ix1 h)
  rw [fusedB_eq, shapeCast_a_1a_apply]
  exact concatenate_pair_apply_left 0 _ _ concatenates_S64_S64_S128_d0 (ix1 (Ker.lo h)) rfl (ix1 h)
    (fun b => match b with | ⟨0, _⟩ => rfl)

/-- and the last 64 the key bias. -/
theorem bHi_eq : Ker.bHi (Ker.fusedB m c) = Ref.vec (m ((c.tc : Thread nD τ).loc main_arg7)) := by
  funext h
  show Ker.fusedB m c (ix2 (0 : Fin 1) (Ker.hi h)) = m ((c.tc : Thread nD τ).loc main_arg7) (ix1 h)
  rw [fusedB_eq, shapeCast_a_1a_apply]
  exact concatenate_pair_apply_right 0 _ _ concatenates_S64_S64_S128_d0 (ix1 (Ker.hi h)) rfl rfl (ix1 h)
    (fun b hb => match b, hb with | ⟨0, _⟩, hb => absurd rfl hb)
    (by show h.val + 64 = 64 + h.val; omega)

/-- So the kernel program's result is the reference's last stage of the same arguments. -/
theorem result_eq :
    shapeCast S32x512x128 (Ker.result m c) shapeCasts_S16384x128_S32x512x128
      = val_main_v74 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  have hE : Ker.arrEmb m c = Ref.embRows (m ((c.tc : Thread nD τ).loc main_arg0)) (m ((c.tc : Thread nD τ).loc main_arg3)) :=
    funext fun b => funext fun n => funext fun d => congrFun (emb_eq m c) (ix3 b n d)
  have hM : Ker.arrMask m c = Ref.maskRows (m ((c.tc : Thread nD τ).loc main_arg1)) :=
    funext fun b => funext fun n => congrFun (mask_eq m c) (ix2 b n)
  have hW : Ker.arrWt m c = Ref.weightRows (m ((c.tc : Thread nD τ).loc main_arg0)) (m ((c.tc : Thread nD τ).loc main_arg1))
      (m ((c.tc : Thread nD τ).loc main_arg2)) (m ((c.tc : Thread nD τ).loc main_arg8)) (m ((c.tc : Thread nD τ).loc main_arg9)) :=
    funext fun b => funext fun n => congrFun (weight_eq m c) (ix2 b n)
  have hR : Ker.result m c = val_main_v73 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
    funext j
    rw [Ref.out_eq]
    unfold Ker.result
    rw [hE, hM, hW, wLo_eq, wHi_eq, bLo_eq, bHi_eq]
  rw [hR]
  rfl

end Kernel

end Cert.AttnPool.Bridge

end
-- ==== Proof.lean ====
/-
  Attention pooling of concept sets: the tiled kernel program against its reference, over the extended reals.

  Both programs gather, for each of 16384 rows, 32 concept embeddings of dimension 128, and compute per row
    q = X·QWᵀ + qb,  k = X·KWᵀ + kb,
    S[n,m] = (Σ_h q[n,h]·k[m,h]) scaled by 1/8, plus f[n]·f[m] with f = 0 where the mask exceeds 1/2 and the
             large negative literal elsewhere,
    A = row softmax of S (shifted by the row maximum),
    out[d] = Σ_n (Σ_m A[n,m]·X[m,d]) · w[n],  w = sigmoid(θ − μ·time)·mask,
  and reshape the `[16384, 128]` result to `[32, 512, 128]`.

  The kernel program does the projection once with the query and key matrices stacked (and slices the 128 columns
  into their halves), handles a block of 128 rows per grid point, multiplies the scores by 0.125 where the reference
  divides by 8.0, and rounds several operands to bf16. Over the extended reals the roundings are the identity, the
  product with 0.125 is the quotient by 8.0 at every extended real, and everything else is the same sums in the
  same order, so no finiteness of the inputs is needed.

  Proof/RowSpec.lean states the row function; Proof/RefRows.lean reads the reference stage by stage as that function;
  Proof/KerLayout.lean and Proof/KerRows.lean read the kernel body's stored block as the same function of the loaded
  blocks; Proof/KerArray.lean puts the 128 blocks together and follows the result through the last reshape;
  Proof/Bridge.lean identifies the arrays the region finds with the reference's own stages. Here the three frames
  (the two kernel programs' from their generated frame runs, the reference's from its generated run), the empty
  idealization ledger and the equality of the two results are assembled.
-/
import proofs.«159404_j43525198578144_2_alg».proof.Defs
import proofs.«159404_j43525198578144_2_alg».proof.Proof.Gen.Kernel
import proofs.«159404_j43525198578144_2_alg».proof.Proof.Gen.Kernel.Skeleton
import proofs.«159404_j43525198578144_2_alg».proof.Proof.Gen.Kernel.Launch
import proofs.«159404_j43525198578144_2_alg».proof.Proof.Gen.Kernel.Points
import proofs.«159404_j43525198578144_2_alg».proof.Proof.Gen.Kernel.Frame
import proofs.«159404_j43525198578144_2_alg».proof.Proof.Gen.KernelIdeal
import proofs.«159404_j43525198578144_2_alg».proof.Proof.Gen.KernelIdeal.Skeleton
import proofs.«159404_j43525198578144_2_alg».proof.Proof.Gen.KernelIdeal.Launch
import proofs.«159404_j43525198578144_2_alg».proof.Proof.Gen.KernelIdeal.Points
import proofs.«159404_j43525198578144_2_alg».proof.Proof.Gen.KernelIdeal.Frame
import proofs.«159404_j43525198578144_2_alg».proof.Proof.Gen.ReferenceIdeal
import proofs.«159404_j43525198578144_2_alg».proof.Proof.Gen.ReferenceIdeal.Run
import proofs.«159404_j43525198578144_2_alg».proof.Proof.Gen.ReferenceIdeal.Read
import proofs.«159404_j43525198578144_2_alg».proof.Proof.Gen.Pre_finite_inputs
import proofs.«159404_j43525198578144_2_alg».proof.Proof.Bridge
import Idealize.ShloMosaic.Adequacy
import Idealize.ShloMosaic.Init

noncomputable section

namespace Cert.Proof

open Idealize.ShloMosaic Idealize.SL.Sem

/-- The printed kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel program's is the
    row function of the arrays its region finds, reshaped; those arrays are the reference's stages of the same
    arguments; and the reference's result is the row function of its stages, reshaped. -/
theorem algebraic : Cert.algebraic_KernelIdeal_ReferenceIdeal := by
  intro m ρ m' ρ' _ hagree
  refine ⟨fun c => shapeCast Cert.KernelIdeal.S32x512x128 (Cert.AttnPool.Ker.result m c)
      Cert.KernelIdeal.Gen.shapeCasts_S16384x128_S32x512x128, Cert.AttnPool.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v74_eq, h0, h1, h2, h3, h4, h5, h6, h7, h8, h9]
  exact (Cert.AttnPool.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
